-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000x128 : Shape := ⟨2, ![1000, 128]⟩
abbrev S128 : Shape := ⟨1, ![128]⟩
abbrev S1x128 : Shape := ⟨2, ![1, 128]⟩
abbrev S2x625000 : Shape := ⟨2, ![2, 625000]⟩
abbrev S625000 : Shape := ⟨1, ![625000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S50000x128 .f32) (main_arg1 : FVec F S1000x128 .f32) (main_arg2 : FVec F S128 .f32) (main_arg3 : FVec F S128 .f32) (main_arg4 : FVec F S1x128 .f32) (main_arg5 : IVec S2x625000 32) (main_arg6 : IVec S625000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S1000x128 : Shape := ⟨2, ![1000, 128]⟩
abbrev S128 : Shape := ⟨1, ![128]⟩
abbrev S1x128 : Shape := ⟨2, ![1, 128]⟩
abbrev S2x625000 : Shape := ⟨2, ![2, 625000]⟩
abbrev S625000 : Shape := ⟨1, ![625000]⟩
abbrev S_ : Shape := ⟨0, ![]⟩
abbrev S5000x128 : Shape := ⟨2, ![5000, 128]⟩
abbrev S1x625000 : Shape := ⟨2, ![1, 625000]⟩
abbrev S625000x1 : Shape := ⟨2, ![625000, 1]⟩
abbrev S625000x128 : Shape := ⟨2, ![625000, 128]⟩
abbrev S50000 : Shape := ⟨1, ![50000]⟩
abbrev S1 : Shape := ⟨1, ![1]⟩
abbrev S50000x1 : Shape := ⟨2, ![50000, 1]⟩
abbrev S5000x1 : Shape := ⟨2, ![5000, 1]⟩

abbrev nBuf : Space → Nat
  | .hbm => 162
  | .vmem => 19
  | .smem => 0
  | _ => 0

abbrev hbmTy0_0 (i : Nat) : BufTy := match i % 128 with
  | 0 => ⟨S50000x128, .f32⟩
  | 1 => ⟨S1000x128, .f32⟩
  | 2 => ⟨S128, .f32⟩
  | 3 => ⟨S128, .f32⟩
  | 4 => ⟨S1x128, .f32⟩
  | 5 => ⟨S2x625000, .i32⟩
  | 6 => ⟨S625000, .i32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S1x128, .f32⟩
  | 37 => ⟨S1x128, .f32⟩
  | 38 => ⟨S1x128, .f32⟩
  | 39 => ⟨S50000x128, .f32⟩
  | 40 => ⟨S1000x128, .f32⟩
  | 41 => ⟨S1000x128, .f32⟩
  | 42 => ⟨S1x625000, .i32⟩
  | 43 => ⟨S625000, .i32⟩
  | 44 => ⟨S1x625000, .i32⟩
  | 45 => ⟨S625000, .i32⟩
  | 46 => ⟨S_, .i32⟩
  | 47 => ⟨S625000, .i32⟩
  | 48 => ⟨S625000, .i1⟩
  | 49 => ⟨S_, .i32⟩
  | 50 => ⟨S625000, .i32⟩
  | 51 => ⟨S625000, .i32⟩
  | 52 => ⟨S625000, .i32⟩
  | 53 => ⟨S625000x1, .i32⟩
  | 54 => ⟨S625000x128, .f32⟩
  | 55 => ⟨S_, .i32⟩
  | 56 => ⟨S625000, .i32⟩
  | 57 => ⟨S625000, .i1⟩
  | 58 => ⟨S_, .i32⟩
  | 59 => ⟨S625000, .i32⟩
  | 60 => ⟨S625000, .i32⟩
  | 61 => ⟨S625000, .i32⟩
  | 62 => ⟨S625000x1, .i32⟩
  | 63 => ⟨S625000x128, .f32⟩
  | 64 => ⟨S_, .i32⟩
  | 65 => ⟨S625000, .i32⟩
  | 66 => ⟨S625000, .i1⟩
  | 67 => ⟨S_, .i32⟩
  | 68 => ⟨S625000, .i32⟩
  | 69 => ⟨S625000, .i32⟩
  | 70 => ⟨S625000, .i32⟩
  | 71 => ⟨S625000x1, .i32⟩
  | 72 => ⟨S625000x128, .f32⟩
  | 73 => ⟨S625000x128, .f32⟩
  | 74 => ⟨S625000x128, .f32⟩
  | 75 => ⟨S_, .f32⟩
  | 76 => ⟨S50000x128, .f32⟩
  | 77 => ⟨S625000x1, .i32⟩
  | 78 => ⟨S50000x128, .f32⟩
  | 79 => ⟨S_, .f32⟩
  | 80 => ⟨S50000x128, .f32⟩
  | 81 => ⟨S625000x1, .i32⟩
  | 82 => ⟨S50000x128, .f32⟩
  | 83 => ⟨S_, .f32⟩
  | 84 => ⟨S50000, .f32⟩
  | 85 => ⟨S1, .i32⟩
  | 86 => ⟨S_, .i32⟩
  | 87 => ⟨S1, .i32⟩
  | 88 => ⟨S_, .i32⟩
  | 89 => ⟨S_, .i1⟩
  | 90 => ⟨S_, .f32⟩
  | 91 => ⟨S1, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S1, .i32⟩
  | 99 => ⟨S50000, .f32⟩
  | 100 => ⟨S1, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S1, .i32⟩
  | 108 => ⟨S50000, .f32⟩
  | 109 => ⟨S1, .i32⟩
  | 110 => ⟨S_, .i32⟩
  | 111 => ⟨S1, .i32⟩
  | 112 => ⟨S_, .i32⟩
  | 113 => ⟨S_, .i1⟩
  | 114 => ⟨S_, .f32⟩
  | 115 => ⟨S1, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S50000, .f32⟩
  | 124 => ⟨S1, .i32⟩
  | 125 => ⟨S_, .i32⟩
  | 126 => ⟨S_, .i32⟩
  | 127 => ⟨S_, .i1⟩
  | _ => ⟨S50000x128, .f32⟩

abbrev hbmTy0_1 (i : Nat) : BufTy := match i % 128 with
  | 0 => ⟨S_, .i32⟩
  | 1 => ⟨S_, .i32⟩
  | 2 => ⟨S_, .i32⟩
  | 3 => ⟨S1, .i32⟩
  | 4 => ⟨S50000, .f32⟩
  | 5 => ⟨S1, .i32⟩
  | 6 => ⟨S_, .i32⟩
  | 7 => ⟨S1, .i32⟩
  | 8 => ⟨S_, .i32⟩
  | 9 => ⟨S_, .i1⟩
  | 10 => ⟨S_, .f32⟩
  | 11 => ⟨S1, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S1, .i32⟩
  | 19 => ⟨S50000, .f32⟩
  | 20 => ⟨S1, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_1 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_3 : Ref sig .tc := ⟨.hbm, 55, rfl⟩
abbrev main_v22 : Ref sig .tc := ⟨.hbm, 56, rfl⟩
abbrev main_v23 : Ref sig .tc := ⟨.hbm, 57, rfl⟩
abbrev main_c_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_5 : Ref sig .tc := ⟨.hbm, 64, rfl⟩
abbrev main_v29 : Ref sig .tc := ⟨.hbm, 65, rfl⟩
abbrev main_v30 : Ref sig .tc := ⟨.hbm, 66, rfl⟩
abbrev main_c_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_10 : Ref sig .tc := ⟨.hbm, 93, rfl⟩
abbrev main_v53 : Ref sig .tc := ⟨.hbm, 94, rfl⟩
abbrev main_c_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_12 : Ref sig .tc := ⟨.hbm, 102, rfl⟩
abbrev main_v60 : Ref sig .tc := ⟨.hbm, 103, rfl⟩
abbrev main_c_13 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_14 : Ref sig .tc := ⟨.hbm, 117, rfl⟩
abbrev main_v73 : Ref sig .tc := ⟨.hbm, 118, rfl⟩
abbrev main_c_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_16 : Ref sig .tc := ⟨.hbm, 126, rfl⟩
abbrev main_v80 : Ref sig .tc := ⟨.hbm, 127, rfl⟩
abbrev main_c_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_18 : Ref sig .tc := ⟨.hbm, 141, rfl⟩
abbrev main_v93 : Ref sig .tc := ⟨.hbm, 142, rfl⟩
abbrev main_c_19 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_20 : Ref sig .tc := ⟨.hbm, 150, rfl⟩
abbrev main_v100 : Ref sig .tc := ⟨.hbm, 151, rfl⟩
abbrev main_c_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_22 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1x128_S1000x128_0_1 : S1x128.BroadcastsInDim S1000x128 (![0, 1] : Fin 2 → Fin S1000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  slices_S625000_S1_0 : S625000.Slices ![0] S1
  shapeCasts_S1_S_ : S1.ShapeCasts S_
  slices_S625000_S1_2 : S625000.Slices ![2] S1
  bcast_S_S1 : S_.BroadcastsInDim S1 (![] : Fin 0 → Fin S1.rank)
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  gather_S50000x128_S625000x1_S625000x128_1_0_n_n_0_1_1128_wf : GatherDims.WF S50000x128 S625000x1 S625000x128 [1] [0] [] [0] [] 1 ![1, 128]
  gather_S1000x128_S625000x1_S625000x128_1_0_n_n_0_1_1128_wf : GatherDims.WF S1000x128 S625000x1 S625000x128 [1] [0] [] [0] [] 1 ![1, 128]
  scatter_S50000x128_S625000x1_S625000x128_1_0_0_1_wf : ScatterDims.WF S50000x128 S625000x1 S625000x128 [1] [0] [0] 1
  scatter_S50000_S1_S__n_0_0_0_wf : ScatterDims.WF S50000 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def gather_S1000x128_S625000x1_S625000x128_1_0_n_n_0_1_1128 : GatherDims S1000x128 S625000x1 S625000x128 where
  offsetDims := [1]
  collapsedSliceDims := [0]
  operandBatchingDims := []
  startIndicesBatchingDims := []
  startIndexMap := [0]
  indexVectorDim := 1
  sliceSizes := ![1, 128]
  wf := gather_S1000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S1_S__n_0_0_0 : ScatterDims S50000 S1 S_ where
  updateWindowDims := []
  insertedWindowDims := [0]
  scatterDimsToOperandDims := [0]
  indexVectorDim := 0
  wf := scatter_S50000_S1_S__n_0_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v107) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v108) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S1000x128 : Shape := ⟨2, ![1000, 128]⟩
abbrev S128 : Shape := ⟨1, ![128]⟩
abbrev S1x128 : Shape := ⟨2, ![1, 128]⟩
abbrev S2x625000 : Shape := ⟨2, ![2, 625000]⟩
abbrev S625000 : Shape := ⟨1, ![625000]⟩
abbrev S_ : Shape := ⟨0, ![]⟩
abbrev S1x625000 : Shape := ⟨2, ![1, 625000]⟩
abbrev S625000x1 : Shape := ⟨2, ![625000, 1]⟩
abbrev S625000x128 : Shape := ⟨2, ![625000, 128]⟩
abbrev S50000 : Shape := ⟨1, ![50000]⟩
abbrev S1 : Shape := ⟨1, ![1]⟩
abbrev S50000x1 : Shape := ⟨2, ![50000, 1]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S1000x128, .f32⟩
  | 2 => ⟨S128, .f32⟩
  | 3 => ⟨S128, .f32⟩
  | 4 => ⟨S1x128, .f32⟩
  | 5 => ⟨S2x625000, .i32⟩
  | 6 => ⟨S625000, .i32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S1000x128, .f32⟩
  | 54 => ⟨S1000x128, .f32⟩
  | 55 => ⟨S1x625000, .i32⟩
  | 56 => ⟨S625000, .i32⟩
  | 57 => ⟨S1x625000, .i32⟩
  | 58 => ⟨S625000, .i32⟩
  | 59 => ⟨S_, .i32⟩
  | 60 => ⟨S625000, .i32⟩
  | 61 => ⟨S625000, .i1⟩
  | 62 => ⟨S_, .i32⟩
  | 63 => ⟨S625000, .i32⟩
  | 64 => ⟨S625000, .i32⟩
  | 65 => ⟨S625000, .i32⟩
  | 66 => ⟨S625000x1, .i32⟩
  | 67 => ⟨S625000x128, .f32⟩
  | 68 => ⟨S_, .i32⟩
  | 69 => ⟨S625000, .i32⟩
  | 70 => ⟨S625000, .i1⟩
  | 71 => ⟨S_, .i32⟩
  | 72 => ⟨S625000, .i32⟩
  | 73 => ⟨S625000, .i32⟩
  | 74 => ⟨S625000, .i32⟩
  | 75 => ⟨S625000x1, .i32⟩
  | 76 => ⟨S625000x128, .f32⟩
  | 77 => ⟨S_, .i32⟩
  | 78 => ⟨S625000, .i32⟩
  | 79 => ⟨S625000, .i1⟩
  | 80 => ⟨S_, .i32⟩
  | 81 => ⟨S625000, .i32⟩
  | 82 => ⟨S625000, .i32⟩
  | 83 => ⟨S625000, .i32⟩
  | 84 => ⟨S625000x1, .i32⟩
  | 85 => ⟨S625000x128, .f32⟩
  | 86 => ⟨S625000x128, .f32⟩
  | 87 => ⟨S625000x128, .f32⟩
  | 88 => ⟨S_, .f32⟩
  | 89 => ⟨S50000x128, .f32⟩
  | 90 => ⟨S625000x1, .i32⟩
  | 91 => ⟨S50000x128, .f32⟩
  | 92 => ⟨S_, .f32⟩
  | 93 => ⟨S50000x128, .f32⟩
  | 94 => ⟨S625000x1, .i32⟩
  | 95 => ⟨S50000x128, .f32⟩
  | 96 => ⟨S_, .f32⟩
  | 97 => ⟨S50000, .f32⟩
  | 98 => ⟨S1, .i32⟩
  | 99 => ⟨S_, .i32⟩
  | 100 => ⟨S1, .i32⟩
  | 101 => ⟨S_, .i32⟩
  | 102 => ⟨S_, .i1⟩
  | 103 => ⟨S_, .f32⟩
  | 104 => ⟨S1, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S1, .i32⟩
  | 112 => ⟨S50000, .f32⟩
  | 113 => ⟨S1, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S50000, .f32⟩
  | 122 => ⟨S1, .i32⟩
  | 123 => ⟨S_, .i32⟩
  | 124 => ⟨S1, .i32⟩
  | 125 => ⟨S_, .i32⟩
  | 126 => ⟨S_, .i1⟩
  | 127 => ⟨S_, .f32⟩
  | _ => ⟨S50000x128, .f32⟩

abbrev hbmTy0_1 (i : Nat) : BufTy := match i % 128 with
  | 0 => ⟨S1, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S50000, .f32⟩
  | 9 => ⟨S1, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S1, .i32⟩
  | 17 => ⟨S50000, .f32⟩
  | 18 => ⟨S1, .i32⟩
  | 19 => ⟨S_, .i32⟩
  | 20 => ⟨S1, .i32⟩
  | 21 => ⟨S_, .i32⟩
  | 22 => ⟨S_, .i1⟩
  | 23 => ⟨S_, .f32⟩
  | 24 => ⟨S1, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S1, .i32⟩
  | 32 => ⟨S50000, .f32⟩
  | 33 => ⟨S1, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S50000, .f32⟩
  | 42 => ⟨S50000x128, .f32⟩
  | 43 => ⟨S50000x128, .f32⟩
  | 44 => ⟨S50000x1, .f32⟩
  | 45 => ⟨S50000x128, .f32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_c_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_4 : Ref sig .tc := ⟨.hbm, 68, rfl⟩
abbrev main_v34 : Ref sig .tc := ⟨.hbm, 69, rfl⟩
abbrev main_v35 : Ref sig .tc := ⟨.hbm, 70, rfl⟩
abbrev main_c_5 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_6 : Ref sig .tc := ⟨.hbm, 77, rfl⟩
abbrev main_v41 : Ref sig .tc := ⟨.hbm, 78, rfl⟩
abbrev main_v42 : Ref sig .tc := ⟨.hbm, 79, rfl⟩
abbrev main_c_7 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_8 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_11 : Ref sig .tc := ⟨.hbm, 106, rfl⟩
abbrev main_v65 : Ref sig .tc := ⟨.hbm, 107, rfl⟩
abbrev main_c_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_13 : Ref sig .tc := ⟨.hbm, 115, rfl⟩
abbrev main_v72 : Ref sig .tc := ⟨.hbm, 116, rfl⟩
abbrev main_c_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_15 : Ref sig .tc := ⟨.hbm, 130, rfl⟩
abbrev main_v85 : Ref sig .tc := ⟨.hbm, 131, rfl⟩
abbrev main_c_16 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_17 : Ref sig .tc := ⟨.hbm, 139, rfl⟩
abbrev main_v92 : Ref sig .tc := ⟨.hbm, 140, rfl⟩
abbrev main_c_18 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_19 : Ref sig .tc := ⟨.hbm, 154, rfl⟩
abbrev main_v105 : Ref sig .tc := ⟨.hbm, 155, rfl⟩
abbrev main_c_20 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_21 : Ref sig .tc := ⟨.hbm, 163, rfl⟩
abbrev main_v112 : Ref sig .tc := ⟨.hbm, 164, rfl⟩
abbrev main_c_22 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S1x128_S1000x128_0_1 : S1x128.BroadcastsInDim S1000x128 (![0, 1] : Fin 2 → Fin S1000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  slices_S625000_S1_0 : S625000.Slices ![0] S1
  shapeCasts_S1_S_ : S1.ShapeCasts S_
  slices_S625000_S1_2 : S625000.Slices ![2] S1
  bcast_S_S1 : S_.BroadcastsInDim S1 (![] : Fin 0 → Fin S1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  gather_S1000x128_S625000x1_S625000x128_1_0_n_n_0_1_1128_wf : GatherDims.WF S1000x128 S625000x1 S625000x128 [1] [0] [] [0] [] 1 ![1, 128]
  scatter_S50000x128_S625000x1_S625000x128_1_0_0_1_wf : ScatterDims.WF S50000x128 S625000x1 S625000x128 [1] [0] [0] 1
  scatter_S50000_S1_S__n_0_0_0_wf : ScatterDims.WF S50000 S1 S_ [] [0] [0] 0

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def gather_S1000x128_S625000x1_S625000x128_1_0_n_n_0_1_1128 : GatherDims S1000x128 S625000x1 S625000x128 where
  offsetDims := [1]
  collapsedSliceDims := [0]
  operandBatchingDims := []
  startIndicesBatchingDims := []
  startIndexMap := [0]
  indexVectorDim := 1
  sliceSizes := ![1, 128]
  wf := gather_S1000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S1_S__n_0_0_0 : ScatterDims S50000 S1 S_ where
  updateWindowDims := []
  insertedWindowDims := [0]
  scatterDimsToOperandDims := [0]
  indexVectorDim := 0
  wf := scatter_S50000_S1_S__n_0_0_0_wf

class Facts : Prop extends Facts₀ where

variable [Facts]
-- ==== Proof.KernelRun.lean ====
/-
  The idealized kernel's run with its result named.

  The program is six segments: three stretches of host operations (the column means, the column variances, four reshapes
  to one-row arrays), the first region (normalize and scale the node features, ten row blocks), a long stretch of host
  operations (relation table, gathers, segment sums, degrees, the reciprocal degree as a column) and the second region (the
  final combine, ten row blocks). Every weakly fair execution terminates with every unscoped buffer at the contents the fold
  through these segments leaves (`Gen.W6`): the result buffer is the second region's output array, so it ends at what that
  region's write-backs leave, and the argument arrays end as launched.
-/
import proofs.«137147_j34394098106414_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v108) = W6 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v108 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.ValueRun

end
-- ==== Proof.RefRun.lean ====
/-
  The reference as a straight line of host operations, and its run.

  The reference computes, on the host only: the column means and (biased) column variances of the node features x; the
  normalized features  y = (((x − mean) · rsqrt(var + ε)) · γ + β) · k ; the scaled relation table r · k ; for every edge the
  rows y[head], y[tail] and (r·k)[rel]; the two segment sums  in[n] = Σ_{tail e = n} (y[head e] + (r·k)[rel e])  and
  out[n] = Σ_{head e = n} (y[tail e] − (r·k)[rel e]) ; a degree vector d that starts at one and receives six scalar
  increments (each 0 or 1); and finally  (out + in + y) / d , the degree broadcast along the rows.

  Its text is cut here into three stretches: `normalizeOps` (up to y), `aggregateOps` (the relation table, the gathers, the
  segment sums and the degrees) and `combineOps` (the last five operations). The module-local function that computes the
  variance is listed inline at its call, over that call's own buffers. The run theorem says that every weakly fair execution
  terminates with each buffer at the fold of the three stretches over the launch contents; the argument arrays are written by
  no operation.
-/
import proofs.«137147_j34394098106414_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Batch statistics and the normalized, scaled node features (46 operations; the variance function inline). -/
abbrev normalizeOps : List (HloOp τ sig (Elt F)) :=
  [ StableHlo.nullary main_cst (constant S_ .f32 0x00000000#32),
    StableHlo.binary main_arg0 main_cst main_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_arg0 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v3 : StableHlo.TRef sig ⟨S128, .f32⟩) (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v5 main_v6 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v6 main_v11 main_v12 (mulf : (⟨S50000x128, .f32⟩ : BufTy).Contents (Elt F) → (⟨S50000x128, .f32⟩ : BufTy).Contents (Elt F) → (⟨S50000x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (mulf : (⟨S50000x128, .f32⟩ : BufTy).Contents (Elt F) → (⟨S50000x128, .f32⟩ : BufTy).Contents (Elt F) → (⟨S50000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg4 main_v19 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v19 main_v20 (mulf : (⟨S50000x128, .f32⟩ : BufTy).Contents (Elt F) → (⟨S50000x128, .f32⟩ : BufTy).Contents (Elt F) → (⟨S50000x128, .f32⟩ : BufTy).Contents (Elt F)) ]

set_option maxHeartbeats 40000000 in
/-- The scaled relation table, the three edge gathers, the two segment sums and the degree vector (117 operations). -/
abbrev aggregateOps : List (HloOp τ sig (Elt F)) :=
  [ StableHlo.unary main_arg4 main_v21 (broadcastInDim S1000x128 ![0, 1] bcast_S1x128_S1000x128_0_1 : (⟨S1x128, .f32⟩ : BufTy).Contents (Elt F) → (⟨S1000x128, .f32⟩ : BufTy).Contents (Elt F)),
    StableHlo.binary main_arg1 main_v21 main_v22 (mulf : (⟨S1000x128, .f32⟩ : BufTy).Contents (Elt F) → (⟨S1000x128, .f32⟩ : BufTy).Contents (Elt F) → (⟨S1000x128, .f32⟩ : BufTy).Contents (Elt F)),
    StableHlo.unary main_arg5 main_v23 ((extractStridedSlice S1x625000 ![0, 0] · slices_S2x625000_S1x625000_0_0) : (⟨S2x625000, .i32⟩ : BufTy).Contents (Elt F) → (⟨S1x625000, .i32⟩ : BufTy).Contents (Elt F)),
    StableHlo.reshape main_v23 main_v24 rfl shapeCasts_S1x625000_S625000,
    StableHlo.unary main_arg5 main_v25 ((extractStridedSlice S1x625000 ![1, 0] · slices_S2x625000_S1x625000_1_0) : (⟨S2x625000, .i32⟩ : BufTy).Contents (Elt F) → (⟨S1x625000, .i32⟩ : BufTy).Contents (Elt F)),
    StableHlo.reshape main_v25 main_v26 rfl shapeCasts_S1x625000_S625000,
    StableHlo.nullary main_c_2 (constantI S_ 32 0#32),
    StableHlo.unary main_c_2 main_v27 (broadcastInDim S625000 ![] bcast_S_S625000 : (⟨S_, .i32⟩ : BufTy).Contents (Elt F) → (⟨S625000, .i32⟩ : BufTy).Contents (Elt F)),
    StableHlo.binary main_v24 main_v27 main_v28 (cmpi .slt : (⟨S625000, .i32⟩ : BufTy).Contents (Elt F) → (⟨S625000, .i32⟩ : BufTy).Contents (Elt F) → (⟨S625000, .i1⟩ : BufTy).Contents (Elt F)),
    StableHlo.nullary main_c_3 (constantI S_ 32 50000#32),
    StableHlo.unary main_c_3 main_v29 (broadcastInDim S625000 ![] bcast_S_S625000 : (⟨S_, .i32⟩ : BufTy).Contents (Elt F) → (⟨S625000, .i32⟩ : BufTy).Contents (Elt F)),
    StableHlo.binary main_v24 main_v29 main_v30 (addi : (⟨S625000, .i32⟩ : BufTy).Contents (Elt F) → (⟨S625000, .i32⟩ : BufTy).Contents (Elt F) → (⟨S625000, .i32⟩ : BufTy).Contents (Elt F)),
    StableHlo.ternary main_v28 main_v30 main_v24 main_v31 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v31 main_v32 (broadcastInDim S625000x1 ![0] bcast_S625000_S625000x1_0 : (⟨S625000, .i32⟩ : BufTy).Contents (Elt F) → (⟨S625000x1, .i32⟩ : BufTy).Contents (Elt F)),
    StableHlo.binary main_v20 main_v32 main_v33 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.nullary main_c_4 (constantI S_ 32 0#32),
    StableHlo.unary main_c_4 main_v34 (broadcastInDim S625000 ![] bcast_S_S625000 : (⟨S_, .i32⟩ : BufTy).Contents (Elt F) → (⟨S625000, .i32⟩ : BufTy).Contents (Elt F)),
    StableHlo.binary main_arg6 main_v34 main_v35 (cmpi .slt : (⟨S625000, .i32⟩ : BufTy).Contents (Elt F) → (⟨S625000, .i32⟩ : BufTy).Contents (Elt F) → (⟨S625000, .i1⟩ : BufTy).Contents (Elt F)),
    StableHlo.nullary main_c_5 (constantI S_ 32 1000#32),
    StableHlo.unary main_c_5 main_v36 (broadcastInDim S625000 ![] bcast_S_S625000 : (⟨S_, .i32⟩ : BufTy).Contents (Elt F) → (⟨S625000, .i32⟩ : BufTy).Contents (Elt F)),
    StableHlo.binary main_arg6 main_v36 main_v37 (addi : (⟨S625000, .i32⟩ : BufTy).Contents (Elt F) → (⟨S625000, .i32⟩ : BufTy).Contents (Elt F) → (⟨S625000, .i32⟩ : BufTy).Contents (Elt F)),
    StableHlo.ternary main_v35 main_v37 main_arg6 main_v38 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v38 main_v39 (broadcastInDim S625000x1 ![0] bcast_S625000_S625000x1_0 : (⟨S625000, .i32⟩ : BufTy).Contents (Elt F) → (⟨S625000x1, .i32⟩ : BufTy).Contents (Elt F)),
    StableHlo.binary main_v22 main_v39 main_v40 ((fun x i => Host.gather gather_S1000x128_S625000x1_S625000x128_1_0_n_n_0_1_1128 x i) : (⟨S1000x128, .f32⟩ : BufTy).Contents (Elt F) → (⟨S625000x1, .i32⟩ : BufTy).Contents (Elt F) → (⟨S625000x128, .f32⟩ : BufTy).Contents (Elt F)),
    StableHlo.nullary main_c_6 (constantI S_ 32 0#32),
    StableHlo.unary main_c_6 main_v41 (broadcastInDim S625000 ![] bcast_S_S625000 : (⟨S_, .i32⟩ : BufTy).Contents (Elt F) → (⟨S625000, .i32⟩ : BufTy).Contents (Elt F)),
    StableHlo.binary main_v26 main_v41 main_v42 (cmpi .slt : (⟨S625000, .i32⟩ : BufTy).Contents (Elt F) → (⟨S625000, .i32⟩ : BufTy).Contents (Elt F) → (⟨S625000, .i1⟩ : BufTy).Contents (Elt F)),
    StableHlo.nullary main_c_7 (constantI S_ 32 50000#32),
    StableHlo.unary main_c_7 main_v43 (broadcastInDim S625000 ![] bcast_S_S625000 : (⟨S_, .i32⟩ : BufTy).Contents (Elt F) → (⟨S625000, .i32⟩ : BufTy).Contents (Elt F)),
    StableHlo.binary main_v26 main_v43 main_v44 (addi : (⟨S625000, .i32⟩ : BufTy).Contents (Elt F) → (⟨S625000, .i32⟩ : BufTy).Contents (Elt F) → (⟨S625000, .i32⟩ : BufTy).Contents (Elt F)),
    StableHlo.ternary main_v42 main_v44 main_v26 main_v45 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v45 main_v46 (broadcastInDim S625000x1 ![0] bcast_S625000_S625000x1_0 : (⟨S625000, .i32⟩ : BufTy).Contents (Elt F) → (⟨S625000x1, .i32⟩ : BufTy).Contents (Elt F)),
    StableHlo.binary main_v20 main_v46 main_v47 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.binary main_v33 main_v40 main_v48 (addf : (⟨S625000x128, .f32⟩ : BufTy).Contents (Elt F) → (⟨S625000x128, .f32⟩ : BufTy).Contents (Elt F) → (⟨S625000x128, .f32⟩ : BufTy).Contents (Elt F)),
    StableHlo.binary main_v47 main_v40 main_v49 (subf : (⟨S625000x128, .f32⟩ : BufTy).Contents (Elt F) → (⟨S625000x128, .f32⟩ : BufTy).Contents (Elt F) → (⟨S625000x128, .f32⟩ : BufTy).Contents (Elt F)),
    StableHlo.nullary main_cst_8 (constant S_ .f32 0x00000000#32),
    StableHlo.unary main_cst_8 main_v50 (broadcastInDim S50000x128 ![] bcast_S_S50000x128 : (⟨S_, .f32⟩ : BufTy).Contents (Elt F) → (⟨S50000x128, .f32⟩ : BufTy).Contents (Elt F)),
    StableHlo.unary main_v26 main_v51 (broadcastInDim S625000x1 ![0] bcast_S625000_S625000x1_0 : (⟨S625000, .i32⟩ : BufTy).Contents (Elt F) → (⟨S625000x1, .i32⟩ : BufTy).Contents (Elt F)),
    StableHlo.ternary main_v50 main_v51 main_v48 main_v52 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    StableHlo.nullary main_cst_9 (constant S_ .f32 0x00000000#32),
    StableHlo.unary main_cst_9 main_v53 (broadcastInDim S50000x128 ![] bcast_S_S50000x128 : (⟨S_, .f32⟩ : BufTy).Contents (Elt F) → (⟨S50000x128, .f32⟩ : BufTy).Contents (Elt F)),
    StableHlo.unary main_v24 main_v54 (broadcastInDim S625000x1 ![0] bcast_S625000_S625000x1_0 : (⟨S625000, .i32⟩ : BufTy).Contents (Elt F) → (⟨S625000x1, .i32⟩ : BufTy).Contents (Elt F)),
    StableHlo.ternary main_v53 main_v54 main_v49 main_v55 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    StableHlo.nullary main_cst_10 (constant S_ .f32 0x3F800000#32),
    StableHlo.unary main_cst_10 main_v56 (broadcastInDim S50000 ![] bcast_S_S50000 : (⟨S_, .f32⟩ : BufTy).Contents (Elt F) → (⟨S50000, .f32⟩ : BufTy).Contents (Elt F)),
    StableHlo.unary main_v24 main_v57 ((extractStridedSlice S1 ![0] · slices_S625000_S1_0) : (⟨S625000, .i32⟩ : BufTy).Contents (Elt F) → (⟨S1, .i32⟩ : BufTy).Contents (Elt F)),
    StableHlo.reshape main_v57 main_v58 rfl shapeCasts_S1_S_,
    StableHlo.unary main_v24 main_v59 ((extractStridedSlice S1 ![2] · slices_S625000_S1_2) : (⟨S625000, .i32⟩ : BufTy).Contents (Elt F) → (⟨S1, .i32⟩ : BufTy).Contents (Elt F)),
    StableHlo.reshape main_v59 main_v60 rfl shapeCasts_S1_S_,
    StableHlo.binary main_v58 main_v60 main_v61 (cmpi .ne : (⟨S_, .i32⟩ : BufTy).Contents (Elt F) → (⟨S_, .i32⟩ : BufTy).Contents (Elt F) → (⟨S_, .i1⟩ : BufTy).Contents (Elt F)),
    StableHlo.unary main_v61 main_v62 (uitofp .f32 : (⟨S_, .i1⟩ : BufTy).Contents (Elt F) → (⟨S_, .f32⟩ : BufTy).Contents (Elt F)),
    StableHlo.unary main_v24 main_v63 ((extractStridedSlice S1 ![0] · slices_S625000_S1_0) : (⟨S625000, .i32⟩ : BufTy).Contents (Elt F) → (⟨S1, .i32⟩ : BufTy).Contents (Elt F)),
    StableHlo.reshape main_v63 main_v64 rfl shapeCasts_S1_S_,
    StableHlo.nullary main_c_11 (constantI S_ 32 0#32),
    StableHlo.binary main_v64 main_c_11 main_v65 (cmpi .slt : (⟨S_, .i32⟩ : BufTy).Contents (Elt F) → (⟨S_, .i32⟩ : BufTy).Contents (Elt F) → (⟨S_, .i1⟩ : BufTy).Contents (Elt F)),
    StableHlo.nullary main_c_12 (constantI S_ 32 50000#32),
    StableHlo.binary main_v64 main_c_12 main_v66 (addi : (⟨S_, .i32⟩ : BufTy).Contents (Elt F) → (⟨S_, .i32⟩ : BufTy).Contents (Elt F) → (⟨S_, .i32⟩ : BufTy).Contents (Elt F)),
    StableHlo.ternary main_v65 main_v66 main_v64 main_v67 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v67 main_v68 (broadcastInDim S1 ![] bcast_S_S1 : (⟨S_, .i32⟩ : BufTy).Contents (Elt F) → (⟨S1, .i32⟩ : BufTy).Contents (Elt F)),
    StableHlo.ternary main_v56 main_v68 main_v62 main_v69 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v24 main_v70 ((extractStridedSlice S1 ![2] · slices_S625000_S1_2) : (⟨S625000, .i32⟩ : BufTy).Contents (Elt F) → (⟨S1, .i32⟩ : BufTy).Contents (Elt F)),
    StableHlo.reshape main_v70 main_v71 rfl shapeCasts_S1_S_,
    StableHlo.nullary main_c_13 (constantI S_ 32 0#32),
    StableHlo.binary main_v71 main_c_13 main_v72 (cmpi .slt : (⟨S_, .i32⟩ : BufTy).Contents (Elt F) → (⟨S_, .i32⟩ : BufTy).Contents (Elt F) → (⟨S_, .i1⟩ : BufTy).Contents (Elt F)),
    StableHlo.nullary main_c_14 (constantI S_ 32 50000#32),
    StableHlo.binary main_v71 main_c_14 main_v73 (addi : (⟨S_, .i32⟩ : BufTy).Contents (Elt F) → (⟨S_, .i32⟩ : BufTy).Contents (Elt F) → (⟨S_, .i32⟩ : BufTy).Contents (Elt F)),
    StableHlo.ternary main_v72 main_v73 main_v71 main_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v74 main_v75 (broadcastInDim S1 ![] bcast_S_S1 : (⟨S_, .i32⟩ : BufTy).Contents (Elt F) → (⟨S1, .i32⟩ : BufTy).Contents (Elt F)),
    StableHlo.ternary main_v69 main_v75 main_v62 main_v76 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_arg6 main_v77 ((extractStridedSlice S1 ![0] · slices_S625000_S1_0) : (⟨S625000, .i32⟩ : BufTy).Contents (Elt F) → (⟨S1, .i32⟩ : BufTy).Contents (Elt F)),
    StableHlo.reshape main_v77 main_v78 rfl shapeCasts_S1_S_,
    StableHlo.unary main_arg6 main_v79 ((extractStridedSlice S1 ![2] · slices_S625000_S1_2) : (⟨S625000, .i32⟩ : BufTy).Contents (Elt F) → (⟨S1, .i32⟩ : BufTy).Contents (Elt F)),
    StableHlo.reshape main_v79 main_v80 rfl shapeCasts_S1_S_,
    StableHlo.binary main_v78 main_v80 main_v81 (cmpi .ne : (⟨S_, .i32⟩ : BufTy).Contents (Elt F) → (⟨S_, .i32⟩ : BufTy).Contents (Elt F) → (⟨S_, .i1⟩ : BufTy).Contents (Elt F)),
    StableHlo.unary main_v81 main_v82 (uitofp .f32 : (⟨S_, .i1⟩ : BufTy).Contents (Elt F) → (⟨S_, .f32⟩ : BufTy).Contents (Elt F)),
    StableHlo.unary main_arg6 main_v83 ((extractStridedSlice S1 ![0] · slices_S625000_S1_0) : (⟨S625000, .i32⟩ : BufTy).Contents (Elt F) → (⟨S1, .i32⟩ : BufTy).Contents (Elt F)),
    StableHlo.reshape main_v83 main_v84 rfl shapeCasts_S1_S_,
    StableHlo.nullary main_c_15 (constantI S_ 32 0#32),
    StableHlo.binary main_v84 main_c_15 main_v85 (cmpi .slt : (⟨S_, .i32⟩ : BufTy).Contents (Elt F) → (⟨S_, .i32⟩ : BufTy).Contents (Elt F) → (⟨S_, .i1⟩ : BufTy).Contents (Elt F)),
    StableHlo.nullary main_c_16 (constantI S_ 32 50000#32),
    StableHlo.binary main_v84 main_c_16 main_v86 (addi : (⟨S_, .i32⟩ : BufTy).Contents (Elt F) → (⟨S_, .i32⟩ : BufTy).Contents (Elt F) → (⟨S_, .i32⟩ : BufTy).Contents (Elt F)),
    StableHlo.ternary main_v85 main_v86 main_v84 main_v87 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v87 main_v88 (broadcastInDim S1 ![] bcast_S_S1 : (⟨S_, .i32⟩ : BufTy).Contents (Elt F) → (⟨S1, .i32⟩ : BufTy).Contents (Elt F)),
    StableHlo.ternary main_v76 main_v88 main_v82 main_v89 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_arg6 main_v90 ((extractStridedSlice S1 ![2] · slices_S625000_S1_2) : (⟨S625000, .i32⟩ : BufTy).Contents (Elt F) → (⟨S1, .i32⟩ : BufTy).Contents (Elt F)),
    StableHlo.reshape main_v90 main_v91 rfl shapeCasts_S1_S_,
    StableHlo.nullary main_c_17 (constantI S_ 32 0#32),
    StableHlo.binary main_v91 main_c_17 main_v92 (cmpi .slt : (⟨S_, .i32⟩ : BufTy).Contents (Elt F) → (⟨S_, .i32⟩ : BufTy).Contents (Elt F) → (⟨S_, .i1⟩ : BufTy).Contents (Elt F)),
    StableHlo.nullary main_c_18 (constantI S_ 32 50000#32),
    StableHlo.binary main_v91 main_c_18 main_v93 (addi : (⟨S_, .i32⟩ : BufTy).Contents (Elt F) → (⟨S_, .i32⟩ : BufTy).Contents (Elt F) → (⟨S_, .i32⟩ : BufTy).Contents (Elt F)),
    StableHlo.ternary main_v92 main_v93 main_v91 main_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v94 main_v95 (broadcastInDim S1 ![] bcast_S_S1 : (⟨S_, .i32⟩ : BufTy).Contents (Elt F) → (⟨S1, .i32⟩ : BufTy).Contents (Elt F)),
    StableHlo.ternary main_v89 main_v95 main_v82 main_v96 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v26 main_v97 ((extractStridedSlice S1 ![0] · slices_S625000_S1_0) : (⟨S625000, .i32⟩ : BufTy).Contents (Elt F) → (⟨S1, .i32⟩ : BufTy).Contents (Elt F)),
    StableHlo.reshape main_v97 main_v98 rfl shapeCasts_S1_S_,
    StableHlo.unary main_v26 main_v99 ((extractStridedSlice S1 ![2] · slices_S625000_S1_2) : (⟨S625000, .i32⟩ : BufTy).Contents (Elt F) → (⟨S1, .i32⟩ : BufTy).Contents (Elt F)),
    StableHlo.reshape main_v99 main_v100 rfl shapeCasts_S1_S_,
    StableHlo.binary main_v98 main_v100 main_v101 (cmpi .ne : (⟨S_, .i32⟩ : BufTy).Contents (Elt F) → (⟨S_, .i32⟩ : BufTy).Contents (Elt F) → (⟨S_, .i1⟩ : BufTy).Contents (Elt F)),
    StableHlo.unary main_v101 main_v102 (uitofp .f32 : (⟨S_, .i1⟩ : BufTy).Contents (Elt F) → (⟨S_, .f32⟩ : BufTy).Contents (Elt F)),
    StableHlo.unary main_v26 main_v103 ((extractStridedSlice S1 ![0] · slices_S625000_S1_0) : (⟨S625000, .i32⟩ : BufTy).Contents (Elt F) → (⟨S1, .i32⟩ : BufTy).Contents (Elt F)),
    StableHlo.reshape main_v103 main_v104 rfl shapeCasts_S1_S_,
    StableHlo.nullary main_c_19 (constantI S_ 32 0#32),
    StableHlo.binary main_v104 main_c_19 main_v105 (cmpi .slt : (⟨S_, .i32⟩ : BufTy).Contents (Elt F) → (⟨S_, .i32⟩ : BufTy).Contents (Elt F) → (⟨S_, .i1⟩ : BufTy).Contents (Elt F)),
    StableHlo.nullary main_c_20 (constantI S_ 32 50000#32),
    StableHlo.binary main_v104 main_c_20 main_v106 (addi : (⟨S_, .i32⟩ : BufTy).Contents (Elt F) → (⟨S_, .i32⟩ : BufTy).Contents (Elt F) → (⟨S_, .i32⟩ : BufTy).Contents (Elt F)),
    StableHlo.ternary main_v105 main_v106 main_v104 main_v107 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v107 main_v108 (broadcastInDim S1 ![] bcast_S_S1 : (⟨S_, .i32⟩ : BufTy).Contents (Elt F) → (⟨S1, .i32⟩ : BufTy).Contents (Elt F)),
    StableHlo.ternary main_v96 main_v108 main_v102 main_v109 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v26 main_v110 ((extractStridedSlice S1 ![2] · slices_S625000_S1_2) : (⟨S625000, .i32⟩ : BufTy).Contents (Elt F) → (⟨S1, .i32⟩ : BufTy).Contents (Elt F)),
    StableHlo.reshape main_v110 main_v111 rfl shapeCasts_S1_S_,
    StableHlo.nullary main_c_21 (constantI S_ 32 0#32),
    StableHlo.binary main_v111 main_c_21 main_v112 (cmpi .slt : (⟨S_, .i32⟩ : BufTy).Contents (Elt F) → (⟨S_, .i32⟩ : BufTy).Contents (Elt F) → (⟨S_, .i1⟩ : BufTy).Contents (Elt F)),
    StableHlo.nullary main_c_22 (constantI S_ 32 50000#32),
    StableHlo.binary main_v111 main_c_22 main_v113 (addi : (⟨S_, .i32⟩ : BufTy).Contents (Elt F) → (⟨S_, .i32⟩ : BufTy).Contents (Elt F) → (⟨S_, .i32⟩ : BufTy).Contents (Elt F)),
    StableHlo.ternary main_v112 main_v113 main_v111 main_v114 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v114 main_v115 (broadcastInDim S1 ![] bcast_S_S1 : (⟨S_, .i32⟩ : BufTy).Contents (Elt F) → (⟨S1, .i32⟩ : BufTy).Contents (Elt F)),
    StableHlo.ternary main_v109 main_v115 main_v102 main_v116 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)) ]

/-- The final combine: out + in, plus the features, divided by the degree broadcast along the rows (5 operations). -/
abbrev combineOps : List (HloOp τ sig (Elt F)) :=
  [ StableHlo.binary main_v55 main_v52 main_v117 (addf : (⟨S50000x128, .f32⟩ : BufTy).Contents (Elt F) → (⟨S50000x128, .f32⟩ : BufTy).Contents (Elt F) → (⟨S50000x128, .f32⟩ : BufTy).Contents (Elt F)),
    StableHlo.binary main_v117 main_v20 main_v118 (addf : (⟨S50000x128, .f32⟩ : BufTy).Contents (Elt F) → (⟨S50000x128, .f32⟩ : BufTy).Contents (Elt F) → (⟨S50000x128, .f32⟩ : BufTy).Contents (Elt F)),
    StableHlo.unary main_v116 main_v119 (broadcastInDim S50000x1 ![0] bcast_S50000_S50000x1_0 : (⟨S50000, .f32⟩ : BufTy).Contents (Elt F) → (⟨S50000x1, .f32⟩ : BufTy).Contents (Elt F)),
    StableHlo.unary main_v119 main_v120 (broadcastInDim S50000x128 ![0, 1] bcast_S50000x1_S50000x128_0_1 : (⟨S50000x1, .f32⟩ : BufTy).Contents (Elt F) → (⟨S50000x128, .f32⟩ : BufTy).Contents (Elt F)),
    StableHlo.binary main_v118 main_v120 main_v121 (Host.divf : (⟨S50000x128, .f32⟩ : BufTy).Contents (Elt F) → (⟨S50000x128, .f32⟩ : BufTy).Contents (Elt F) → (⟨S50000x128, .f32⟩ : BufTy).Contents (Elt F)) ]

/-- The first window of the printed text: the first stretch and the head of the second. -/
abbrev window0 : List (HloOp τ sig (Elt F)) :=
  [ StableHlo.nullary main_cst (constant S_ .f32 0x00000000#32),
    StableHlo.binary main_arg0 main_cst main_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_arg0 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v3 : StableHlo.TRef sig ⟨S128, .f32⟩) (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v5 main_v6 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v6 main_v11 main_v12 (mulf : (⟨S50000x128, .f32⟩ : BufTy).Contents (Elt F) → (⟨S50000x128, .f32⟩ : BufTy).Contents (Elt F) → (⟨S50000x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (mulf : (⟨S50000x128, .f32⟩ : BufTy).Contents (Elt F) → (⟨S50000x128, .f32⟩ : BufTy).Contents (Elt F) → (⟨S50000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg4 main_v19 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v19 main_v20 (mulf : (⟨S50000x128, .f32⟩ : BufTy).Contents (Elt F) → (⟨S50000x128, .f32⟩ : BufTy).Contents (Elt F) → (⟨S50000x128, .f32⟩ : BufTy).Contents (Elt F)),
    StableHlo.unary main_arg4 main_v21 (broadcastInDim S1000x128 ![0, 1] bcast_S1x128_S1000x128_0_1 : (⟨S1x128, .f32⟩ : BufTy).Contents (Elt F) → (⟨S1000x128, .f32⟩ : BufTy).Contents (Elt F)),
    StableHlo.binary main_arg1 main_v21 main_v22 (mulf : (⟨S1000x128, .f32⟩ : BufTy).Contents (Elt F) → (⟨S1000x128, .f32⟩ : BufTy).Contents (Elt F) → (⟨S1000x128, .f32⟩ : BufTy).Contents (Elt F)),
    StableHlo.unary main_arg5 main_v23 ((extractStridedSlice S1x625000 ![0, 0] · slices_S2x625000_S1x625000_0_0) : (⟨S2x625000, .i32⟩ : BufTy).Contents (Elt F) → (⟨S1x625000, .i32⟩ : BufTy).Contents (Elt F)),
    StableHlo.reshape main_v23 main_v24 rfl shapeCasts_S1x625000_S625000,
    StableHlo.unary main_arg5 main_v25 ((extractStridedSlice S1x625000 ![1, 0] · slices_S2x625000_S1x625000_1_0) : (⟨S2x625000, .i32⟩ : BufTy).Contents (Elt F) → (⟨S1x625000, .i32⟩ : BufTy).Contents (Elt F)),
    StableHlo.reshape main_v25 main_v26 rfl shapeCasts_S1x625000_S625000,
    StableHlo.nullary main_c_2 (constantI S_ 32 0#32),
    StableHlo.unary main_c_2 main_v27 (broadcastInDim S625000 ![] bcast_S_S625000 : (⟨S_, .i32⟩ : BufTy).Contents (Elt F) → (⟨S625000, .i32⟩ : BufTy).Contents (Elt F)),
    StableHlo.binary main_v24 main_v27 main_v28 (cmpi .slt : (⟨S625000, .i32⟩ : BufTy).Contents (Elt F) → (⟨S625000, .i32⟩ : BufTy).Contents (Elt F) → (⟨S625000, .i1⟩ : BufTy).Contents (Elt F)),
    StableHlo.nullary main_c_3 (constantI S_ 32 50000#32),
    StableHlo.unary main_c_3 main_v29 (broadcastInDim S625000 ![] bcast_S_S625000 : (⟨S_, .i32⟩ : BufTy).Contents (Elt F) → (⟨S625000, .i32⟩ : BufTy).Contents (Elt F)),
    StableHlo.binary main_v24 main_v29 main_v30 (addi : (⟨S625000, .i32⟩ : BufTy).Contents (Elt F) → (⟨S625000, .i32⟩ : BufTy).Contents (Elt F) → (⟨S625000, .i32⟩ : BufTy).Contents (Elt F)),
    StableHlo.ternary main_v28 main_v30 main_v24 main_v31 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v31 main_v32 (broadcastInDim S625000x1 ![0] bcast_S625000_S625000x1_0 : (⟨S625000, .i32⟩ : BufTy).Contents (Elt F) → (⟨S625000x1, .i32⟩ : BufTy).Contents (Elt F)),
    StableHlo.binary main_v20 main_v32 main_v33 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.nullary main_c_4 (constantI S_ 32 0#32),
    StableHlo.unary main_c_4 main_v34 (broadcastInDim S625000 ![] bcast_S_S625000 : (⟨S_, .i32⟩ : BufTy).Contents (Elt F) → (⟨S625000, .i32⟩ : BufTy).Contents (Elt F)),
    StableHlo.binary main_arg6 main_v34 main_v35 (cmpi .slt : (⟨S625000, .i32⟩ : BufTy).Contents (Elt F) → (⟨S625000, .i32⟩ : BufTy).Contents (Elt F) → (⟨S625000, .i1⟩ : BufTy).Contents (Elt F)),
    StableHlo.nullary main_c_5 (constantI S_ 32 1000#32),
    StableHlo.unary main_c_5 main_v36 (broadcastInDim S625000 ![] bcast_S_S625000 : (⟨S_, .i32⟩ : BufTy).Contents (Elt F) → (⟨S625000, .i32⟩ : BufTy).Contents (Elt F)),
    StableHlo.binary main_arg6 main_v36 main_v37 (addi : (⟨S625000, .i32⟩ : BufTy).Contents (Elt F) → (⟨S625000, .i32⟩ : BufTy).Contents (Elt F) → (⟨S625000, .i32⟩ : BufTy).Contents (Elt F)),
    StableHlo.ternary main_v35 main_v37 main_arg6 main_v38 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v38 main_v39 (broadcastInDim S625000x1 ![0] bcast_S625000_S625000x1_0 : (⟨S625000, .i32⟩ : BufTy).Contents (Elt F) → (⟨S625000x1, .i32⟩ : BufTy).Contents (Elt F)),
    StableHlo.binary main_v22 main_v39 main_v40 ((fun x i => Host.gather gather_S1000x128_S625000x1_S625000x128_1_0_n_n_0_1_1128 x i) : (⟨S1000x128, .f32⟩ : BufTy).Contents (Elt F) → (⟨S625000x1, .i32⟩ : BufTy).Contents (Elt F) → (⟨S625000x128, .f32⟩ : BufTy).Contents (Elt F)),
    StableHlo.nullary main_c_6 (constantI S_ 32 0#32),
    StableHlo.unary main_c_6 main_v41 (broadcastInDim S625000 ![] bcast_S_S625000 : (⟨S_, .i32⟩ : BufTy).Contents (Elt F) → (⟨S625000, .i32⟩ : BufTy).Contents (Elt F)),
    StableHlo.binary main_v26 main_v41 main_v42 (cmpi .slt : (⟨S625000, .i32⟩ : BufTy).Contents (Elt F) → (⟨S625000, .i32⟩ : BufTy).Contents (Elt F) → (⟨S625000, .i1⟩ : BufTy).Contents (Elt F)),
    StableHlo.nullary main_c_7 (constantI S_ 32 50000#32),
    StableHlo.unary main_c_7 main_v43 (broadcastInDim S625000 ![] bcast_S_S625000 : (⟨S_, .i32⟩ : BufTy).Contents (Elt F) → (⟨S625000, .i32⟩ : BufTy).Contents (Elt F)),
    StableHlo.binary main_v26 main_v43 main_v44 (addi : (⟨S625000, .i32⟩ : BufTy).Contents (Elt F) → (⟨S625000, .i32⟩ : BufTy).Contents (Elt F) → (⟨S625000, .i32⟩ : BufTy).Contents (Elt F)),
    StableHlo.ternary main_v42 main_v44 main_v26 main_v45 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v45 main_v46 (broadcastInDim S625000x1 ![0] bcast_S625000_S625000x1_0 : (⟨S625000, .i32⟩ : BufTy).Contents (Elt F) → (⟨S625000x1, .i32⟩ : BufTy).Contents (Elt F)),
    StableHlo.binary main_v20 main_v46 main_v47 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.binary main_v33 main_v40 main_v48 (addf : (⟨S625000x128, .f32⟩ : BufTy).Contents (Elt F) → (⟨S625000x128, .f32⟩ : BufTy).Contents (Elt F) → (⟨S625000x128, .f32⟩ : BufTy).Contents (Elt F)),
    StableHlo.binary main_v47 main_v40 main_v49 (subf : (⟨S625000x128, .f32⟩ : BufTy).Contents (Elt F) → (⟨S625000x128, .f32⟩ : BufTy).Contents (Elt F) → (⟨S625000x128, .f32⟩ : BufTy).Contents (Elt F)) ]

/-- The second window of the printed text: the middle of the second stretch. -/
abbrev window1 : List (HloOp τ sig (Elt F)) :=
  [ StableHlo.nullary main_cst_8 (constant S_ .f32 0x00000000#32),
    StableHlo.unary main_cst_8 main_v50 (broadcastInDim S50000x128 ![] bcast_S_S50000x128 : (⟨S_, .f32⟩ : BufTy).Contents (Elt F) → (⟨S50000x128, .f32⟩ : BufTy).Contents (Elt F)),
    StableHlo.unary main_v26 main_v51 (broadcastInDim S625000x1 ![0] bcast_S625000_S625000x1_0 : (⟨S625000, .i32⟩ : BufTy).Contents (Elt F) → (⟨S625000x1, .i32⟩ : BufTy).Contents (Elt F)),
    StableHlo.ternary main_v50 main_v51 main_v48 main_v52 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    StableHlo.nullary main_cst_9 (constant S_ .f32 0x00000000#32),
    StableHlo.unary main_cst_9 main_v53 (broadcastInDim S50000x128 ![] bcast_S_S50000x128 : (⟨S_, .f32⟩ : BufTy).Contents (Elt F) → (⟨S50000x128, .f32⟩ : BufTy).Contents (Elt F)),
    StableHlo.unary main_v24 main_v54 (broadcastInDim S625000x1 ![0] bcast_S625000_S625000x1_0 : (⟨S625000, .i32⟩ : BufTy).Contents (Elt F) → (⟨S625000x1, .i32⟩ : BufTy).Contents (Elt F)),
    StableHlo.ternary main_v53 main_v54 main_v49 main_v55 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    StableHlo.nullary main_cst_10 (constant S_ .f32 0x3F800000#32),
    StableHlo.unary main_cst_10 main_v56 (broadcastInDim S50000 ![] bcast_S_S50000 : (⟨S_, .f32⟩ : BufTy).Contents (Elt F) → (⟨S50000, .f32⟩ : BufTy).Contents (Elt F)),
    StableHlo.unary main_v24 main_v57 ((extractStridedSlice S1 ![0] · slices_S625000_S1_0) : (⟨S625000, .i32⟩ : BufTy).Contents (Elt F) → (⟨S1, .i32⟩ : BufTy).Contents (Elt F)),
    StableHlo.reshape main_v57 main_v58 rfl shapeCasts_S1_S_,
    StableHlo.unary main_v24 main_v59 ((extractStridedSlice S1 ![2] · slices_S625000_S1_2) : (⟨S625000, .i32⟩ : BufTy).Contents (Elt F) → (⟨S1, .i32⟩ : BufTy).Contents (Elt F)),
    StableHlo.reshape main_v59 main_v60 rfl shapeCasts_S1_S_,
    StableHlo.binary main_v58 main_v60 main_v61 (cmpi .ne : (⟨S_, .i32⟩ : BufTy).Contents (Elt F) → (⟨S_, .i32⟩ : BufTy).Contents (Elt F) → (⟨S_, .i1⟩ : BufTy).Contents (Elt F)),
    StableHlo.unary main_v61 main_v62 (uitofp .f32 : (⟨S_, .i1⟩ : BufTy).Contents (Elt F) → (⟨S_, .f32⟩ : BufTy).Contents (Elt F)),
    StableHlo.unary main_v24 main_v63 ((extractStridedSlice S1 ![0] · slices_S625000_S1_0) : (⟨S625000, .i32⟩ : BufTy).Contents (Elt F) → (⟨S1, .i32⟩ : BufTy).Contents (Elt F)),
    StableHlo.reshape main_v63 main_v64 rfl shapeCasts_S1_S_,
    StableHlo.nullary main_c_11 (constantI S_ 32 0#32),
    StableHlo.binary main_v64 main_c_11 main_v65 (cmpi .slt : (⟨S_, .i32⟩ : BufTy).Contents (Elt F) → (⟨S_, .i32⟩ : BufTy).Contents (Elt F) → (⟨S_, .i1⟩ : BufTy).Contents (Elt F)),
    StableHlo.nullary main_c_12 (constantI S_ 32 50000#32),
    StableHlo.binary main_v64 main_c_12 main_v66 (addi : (⟨S_, .i32⟩ : BufTy).Contents (Elt F) → (⟨S_, .i32⟩ : BufTy).Contents (Elt F) → (⟨S_, .i32⟩ : BufTy).Contents (Elt F)),
    StableHlo.ternary main_v65 main_v66 main_v64 main_v67 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v67 main_v68 (broadcastInDim S1 ![] bcast_S_S1 : (⟨S_, .i32⟩ : BufTy).Contents (Elt F) → (⟨S1, .i32⟩ : BufTy).Contents (Elt F)),
    StableHlo.ternary main_v56 main_v68 main_v62 main_v69 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v24 main_v70 ((extractStridedSlice S1 ![2] · slices_S625000_S1_2) : (⟨S625000, .i32⟩ : BufTy).Contents (Elt F) → (⟨S1, .i32⟩ : BufTy).Contents (Elt F)),
    StableHlo.reshape main_v70 main_v71 rfl shapeCasts_S1_S_,
    StableHlo.nullary main_c_13 (constantI S_ 32 0#32),
    StableHlo.binary main_v71 main_c_13 main_v72 (cmpi .slt : (⟨S_, .i32⟩ : BufTy).Contents (Elt F) → (⟨S_, .i32⟩ : BufTy).Contents (Elt F) → (⟨S_, .i1⟩ : BufTy).Contents (Elt F)),
    StableHlo.nullary main_c_14 (constantI S_ 32 50000#32),
    StableHlo.binary main_v71 main_c_14 main_v73 (addi : (⟨S_, .i32⟩ : BufTy).Contents (Elt F) → (⟨S_, .i32⟩ : BufTy).Contents (Elt F) → (⟨S_, .i32⟩ : BufTy).Contents (Elt F)),
    StableHlo.ternary main_v72 main_v73 main_v71 main_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v74 main_v75 (broadcastInDim S1 ![] bcast_S_S1 : (⟨S_, .i32⟩ : BufTy).Contents (Elt F) → (⟨S1, .i32⟩ : BufTy).Contents (Elt F)),
    StableHlo.ternary main_v69 main_v75 main_v62 main_v76 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_arg6 main_v77 ((extractStridedSlice S1 ![0] · slices_S625000_S1_0) : (⟨S625000, .i32⟩ : BufTy).Contents (Elt F) → (⟨S1, .i32⟩ : BufTy).Contents (Elt F)),
    StableHlo.reshape main_v77 main_v78 rfl shapeCasts_S1_S_,
    StableHlo.unary main_arg6 main_v79 ((extractStridedSlice S1 ![2] · slices_S625000_S1_2) : (⟨S625000, .i32⟩ : BufTy).Contents (Elt F) → (⟨S1, .i32⟩ : BufTy).Contents (Elt F)),
    StableHlo.reshape main_v79 main_v80 rfl shapeCasts_S1_S_,
    StableHlo.binary main_v78 main_v80 main_v81 (cmpi .ne : (⟨S_, .i32⟩ : BufTy).Contents (Elt F) → (⟨S_, .i32⟩ : BufTy).Contents (Elt F) → (⟨S_, .i1⟩ : BufTy).Contents (Elt F)),
    StableHlo.unary main_v81 main_v82 (uitofp .f32 : (⟨S_, .i1⟩ : BufTy).Contents (Elt F) → (⟨S_, .f32⟩ : BufTy).Contents (Elt F)),
    StableHlo.unary main_arg6 main_v83 ((extractStridedSlice S1 ![0] · slices_S625000_S1_0) : (⟨S625000, .i32⟩ : BufTy).Contents (Elt F) → (⟨S1, .i32⟩ : BufTy).Contents (Elt F)),
    StableHlo.reshape main_v83 main_v84 rfl shapeCasts_S1_S_,
    StableHlo.nullary main_c_15 (constantI S_ 32 0#32),
    StableHlo.binary main_v84 main_c_15 main_v85 (cmpi .slt : (⟨S_, .i32⟩ : BufTy).Contents (Elt F) → (⟨S_, .i32⟩ : BufTy).Contents (Elt F) → (⟨S_, .i1⟩ : BufTy).Contents (Elt F)),
    StableHlo.nullary main_c_16 (constantI S_ 32 50000#32),
    StableHlo.binary main_v84 main_c_16 main_v86 (addi : (⟨S_, .i32⟩ : BufTy).Contents (Elt F) → (⟨S_, .i32⟩ : BufTy).Contents (Elt F) → (⟨S_, .i32⟩ : BufTy).Contents (Elt F)),
    StableHlo.ternary main_v85 main_v86 main_v84 main_v87 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v87 main_v88 (broadcastInDim S1 ![] bcast_S_S1 : (⟨S_, .i32⟩ : BufTy).Contents (Elt F) → (⟨S1, .i32⟩ : BufTy).Contents (Elt F)),
    StableHlo.ternary main_v76 main_v88 main_v82 main_v89 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_arg6 main_v90 ((extractStridedSlice S1 ![2] · slices_S625000_S1_2) : (⟨S625000, .i32⟩ : BufTy).Contents (Elt F) → (⟨S1, .i32⟩ : BufTy).Contents (Elt F)),
    StableHlo.reshape main_v90 main_v91 rfl shapeCasts_S1_S_,
    StableHlo.nullary main_c_17 (constantI S_ 32 0#32),
    StableHlo.binary main_v91 main_c_17 main_v92 (cmpi .slt : (⟨S_, .i32⟩ : BufTy).Contents (Elt F) → (⟨S_, .i32⟩ : BufTy).Contents (Elt F) → (⟨S_, .i1⟩ : BufTy).Contents (Elt F)),
    StableHlo.nullary main_c_18 (constantI S_ 32 50000#32),
    StableHlo.binary main_v91 main_c_18 main_v93 (addi : (⟨S_, .i32⟩ : BufTy).Contents (Elt F) → (⟨S_, .i32⟩ : BufTy).Contents (Elt F) → (⟨S_, .i32⟩ : BufTy).Contents (Elt F)),
    StableHlo.ternary main_v92 main_v93 main_v91 main_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v94 main_v95 (broadcastInDim S1 ![] bcast_S_S1 : (⟨S_, .i32⟩ : BufTy).Contents (Elt F) → (⟨S1, .i32⟩ : BufTy).Contents (Elt F)),
    StableHlo.ternary main_v89 main_v95 main_v82 main_v96 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v26 main_v97 ((extractStridedSlice S1 ![0] · slices_S625000_S1_0) : (⟨S625000, .i32⟩ : BufTy).Contents (Elt F) → (⟨S1, .i32⟩ : BufTy).Contents (Elt F)),
    StableHlo.reshape main_v97 main_v98 rfl shapeCasts_S1_S_ ]

/-- The third window of the printed text: the end of the second stretch and the third. -/
abbrev window2 : List (HloOp τ sig (Elt F)) :=
  [ StableHlo.unary main_v26 main_v99 ((extractStridedSlice S1 ![2] · slices_S625000_S1_2) : (⟨S625000, .i32⟩ : BufTy).Contents (Elt F) → (⟨S1, .i32⟩ : BufTy).Contents (Elt F)),
    StableHlo.reshape main_v99 main_v100 rfl shapeCasts_S1_S_,
    StableHlo.binary main_v98 main_v100 main_v101 (cmpi .ne : (⟨S_, .i32⟩ : BufTy).Contents (Elt F) → (⟨S_, .i32⟩ : BufTy).Contents (Elt F) → (⟨S_, .i1⟩ : BufTy).Contents (Elt F)),
    StableHlo.unary main_v101 main_v102 (uitofp .f32 : (⟨S_, .i1⟩ : BufTy).Contents (Elt F) → (⟨S_, .f32⟩ : BufTy).Contents (Elt F)),
    StableHlo.unary main_v26 main_v103 ((extractStridedSlice S1 ![0] · slices_S625000_S1_0) : (⟨S625000, .i32⟩ : BufTy).Contents (Elt F) → (⟨S1, .i32⟩ : BufTy).Contents (Elt F)),
    StableHlo.reshape main_v103 main_v104 rfl shapeCasts_S1_S_,
    StableHlo.nullary main_c_19 (constantI S_ 32 0#32),
    StableHlo.binary main_v104 main_c_19 main_v105 (cmpi .slt : (⟨S_, .i32⟩ : BufTy).Contents (Elt F) → (⟨S_, .i32⟩ : BufTy).Contents (Elt F) → (⟨S_, .i1⟩ : BufTy).Contents (Elt F)),
    StableHlo.nullary main_c_20 (constantI S_ 32 50000#32),
    StableHlo.binary main_v104 main_c_20 main_v106 (addi : (⟨S_, .i32⟩ : BufTy).Contents (Elt F) → (⟨S_, .i32⟩ : BufTy).Contents (Elt F) → (⟨S_, .i32⟩ : BufTy).Contents (Elt F)),
    StableHlo.ternary main_v105 main_v106 main_v104 main_v107 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v107 main_v108 (broadcastInDim S1 ![] bcast_S_S1 : (⟨S_, .i32⟩ : BufTy).Contents (Elt F) → (⟨S1, .i32⟩ : BufTy).Contents (Elt F)),
    StableHlo.ternary main_v96 main_v108 main_v102 main_v109 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.unary main_v26 main_v110 ((extractStridedSlice S1 ![2] · slices_S625000_S1_2) : (⟨S625000, .i32⟩ : BufTy).Contents (Elt F) → (⟨S1, .i32⟩ : BufTy).Contents (Elt F)),
    StableHlo.reshape main_v110 main_v111 rfl shapeCasts_S1_S_,
    StableHlo.nullary main_c_21 (constantI S_ 32 0#32),
    StableHlo.binary main_v111 main_c_21 main_v112 (cmpi .slt : (⟨S_, .i32⟩ : BufTy).Contents (Elt F) → (⟨S_, .i32⟩ : BufTy).Contents (Elt F) → (⟨S_, .i1⟩ : BufTy).Contents (Elt F)),
    StableHlo.nullary main_c_22 (constantI S_ 32 50000#32),
    StableHlo.binary main_v111 main_c_22 main_v113 (addi : (⟨S_, .i32⟩ : BufTy).Contents (Elt F) → (⟨S_, .i32⟩ : BufTy).Contents (Elt F) → (⟨S_, .i32⟩ : BufTy).Contents (Elt F)),
    StableHlo.ternary main_v112 main_v113 main_v111 main_v114 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v114 main_v115 (broadcastInDim S1 ![] bcast_S_S1 : (⟨S_, .i32⟩ : BufTy).Contents (Elt F) → (⟨S1, .i32⟩ : BufTy).Contents (Elt F)),
    StableHlo.ternary main_v109 main_v115 main_v102 main_v116 ((fun x i u => Host.scatter scatter_S50000_S1_S__n_0_0_0 FloatOps.addf x i u) : (⟨S50000, .f32⟩ : BufTy).Contents (Elt F) → (⟨S1, .i32⟩ : BufTy).Contents (Elt F) → (⟨S_, .f32⟩ : BufTy).Contents (Elt F) → (⟨S50000, .f32⟩ : BufTy).Contents (Elt F)),
    StableHlo.binary main_v55 main_v52 main_v117 (addf : (⟨S50000x128, .f32⟩ : BufTy).Contents (Elt F) → (⟨S50000x128, .f32⟩ : BufTy).Contents (Elt F) → (⟨S50000x128, .f32⟩ : BufTy).Contents (Elt F)),
    StableHlo.binary main_v117 main_v20 main_v118 (addf : (⟨S50000x128, .f32⟩ : BufTy).Contents (Elt F) → (⟨S50000x128, .f32⟩ : BufTy).Contents (Elt F) → (⟨S50000x128, .f32⟩ : BufTy).Contents (Elt F)),
    StableHlo.unary main_v116 main_v119 (broadcastInDim S50000x1 ![0] bcast_S50000_S50000x1_0 : (⟨S50000, .f32⟩ : BufTy).Contents (Elt F) → (⟨S50000x1, .f32⟩ : BufTy).Contents (Elt F)),
    StableHlo.unary main_v119 main_v120 (broadcastInDim S50000x128 ![0, 1] bcast_S50000x1_S50000x128_0_1 : (⟨S50000x1, .f32⟩ : BufTy).Contents (Elt F) → (⟨S50000x128, .f32⟩ : BufTy).Contents (Elt F)),
    StableHlo.binary main_v118 main_v120 main_v121 (Host.divf : (⟨S50000x128, .f32⟩ : BufTy).Contents (Elt F) → (⟨S50000x128, .f32⟩ : BufTy).Contents (Elt F) → (⟨S50000x128, .f32⟩ : BufTy).Contents (Elt F)) ]

/-- The three stretches, concatenated, are the three windows, concatenated: one list of 168 operations. -/
theorem stretches_eq_windows :
    (normalizeOps ++ (aggregateOps ++ combineOps) : List (HloOp τ sig (Elt F))) = window0 ++ (window1 ++ window2) := rfl

set_option maxRecDepth 16384 in
set_option maxHeartbeats 4000000 in
theorem window0_eq (c : Dev nD) : main_part0 (F := F) c = seq window0 := by
  simp only [main_part0, fn_var.body, fn_where.body, seq, bind_assoc, pure_bind]
  rfl

set_option maxRecDepth 16384 in
set_option maxHeartbeats 4000000 in
theorem window1_eq (c : Dev nD) : main_part1 (F := F) c = seq window1 := by
  simp only [main_part1, seq, bind_assoc, pure_bind]
  rfl

set_option maxRecDepth 16384 in
set_option maxHeartbeats 4000000 in
theorem window2_eq (c : Dev nD) : main_part2 (F := F) c = seq window2 := by
  simp only [main_part2, seq, bind_assoc, pure_bind]

/-- @main is the straight line of the three stretches. -/
theorem main_eq (c : Dev nD) : main (F := F) c = seq (normalizeOps ++ (aggregateOps ++ combineOps)) := by
  rw [stretches_eq_windows, seq_append, seq_append, ← window0_eq c, ← window1_eq c, ← window2_eq c]
  rfl

theorem scopedRefs_eq : (Finset.univ.filter fun b : Ref sig .tc => b.isScoped) = ∅ := by decide
theorem scopedSems_eq : (Finset.univ.filter fun sm : SemLoc sig => sm.isScoped .tc) = ∅ := by decide

theorem normalizeOps_sub : (normalizeOps : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub ..⟩
set_option maxHeartbeats 4000000 in
theorem aggregateOps_sub : (aggregateOps : List (HloOp τ sig (Elt F))).Forall fun op => op.bufs ⊆ tcRefs τ sig :=
  ⟨StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub ..⟩
theorem combineOps_sub : (combineOps : List (HloOp τ sig (Elt F))).Forall fun op => op.bufs ⊆ tcRefs τ sig :=
  ⟨StableHlo.binary_bufs_sub .., StableHlo.binary_bufs_sub .., StableHlo.unary_bufs_sub .., StableHlo.unary_bufs_sub .., StableHlo.binary_bufs_sub ..⟩

theorem ops_sub : (normalizeOps ++ (aggregateOps ++ combineOps) : List (HloOp τ sig (Elt F))).Forall fun op => op.bufs ⊆ tcRefs τ sig := by
  rw [List.forall_iff_forall_mem]
  intro op hop
  rcases List.mem_append.mp hop with h | h
  · exact (List.forall_iff_forall_mem.mp normalizeOps_sub) op h
  · rcases List.mem_append.mp h with h | h
    · exact (List.forall_iff_forall_mem.mp aggregateOps_sub) op h
    · exact (List.forall_iff_forall_mem.mp combineOps_sub) op h

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- No operation of the three stretches allocates a buffer. -/
theorem ops_fresh : ∀ op ∈ (normalizeOps ++ (aggregateOps ++ combineOps) : List (HloOp τ sig (Elt F))), op.fresh = ∅ := by
  have h : (normalizeOps ++ (aggregateOps ++ combineOps) : List (HloOp τ sig (Elt F))).Forall fun op => op.fresh = ∅ := by
    simp only [List.cons_append, List.nil_append, List.Forall]; repeat' constructor
  exact List.forall_iff_forall_mem.mp h

/-- Every weakly fair execution of the reference terminates, nothing faulting, with every buffer at the fold of the three
    stretches over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after combineOps (after aggregateOps (after normalizeOps (launchContents m c))) (b : DevRef τ sig) :=
  (θ_run defs _ _).mono (fun _ h c b => by rw [h c b, after_append, after_append])
    (run_seq scopedRefs_eq scopedSems_eq defs main (fun _ => normalizeOps ++ (aggregateOps ++ combineOps)) main_eq
      (fun _ => ops_sub) m ρ (fun _ => ops_fresh))

end Cert.ReferenceIdeal.HostRun

end
-- ==== Proof.RefReads.lean ====
/-
  Buffers read through a stretch of host operations.

  The kernel's long host stretch does not write the normalized features; the reference's second stretch does not write them
  either; the reference's last five operations are  (out + in) + y  divided by the degree vector broadcast to a column and
  then along the rows; and no operation of the reference writes an argument array.
-/
import proofs.«137147_j34394098106414_2_alg».proof.Proof.RefRun
import proofs.«137147_j34394098106414_2_alg».proof.Proof.Gen.KernelIdeal.Launch
import Idealize.ShloMosaic.Lib.StableHlo.Run
import Idealize.ShloMosaic.PureOps.Ideal

set_option maxRecDepth 16384

noncomputable section

namespace Cert.Reads

open Idealize.ShloMosaic Idealize.ShloMosaic.TcCoe Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 4000000 in
/-- The kernel's long host stretch leaves the normalized features as it finds them. -/
theorem features_kept : after (Cert.KernelIdeal.Gen.hostOps1 (F := F)) WK (Proc.devRef .tc Cert.KernelIdeal.main_v8) = WK (Proc.devRef .tc Cert.KernelIdeal.main_v8) := by
  after_results_simp

set_option maxHeartbeats 4000000 in
/-- The reference's second stretch leaves the normalized features as it finds them. -/
theorem ref_features_kept :
    after (Cert.ReferenceIdeal.HostRun.aggregateOps (F := F)) WR (Proc.devRef .tc Cert.ReferenceIdeal.main_v20) = WR (Proc.devRef .tc Cert.ReferenceIdeal.main_v20) := by
  after_results_simp

/-- The reference's result from the buffers its last stretch starts from. -/
theorem ref_combine :
    after (Cert.ReferenceIdeal.HostRun.combineOps (F := F)) WR (Proc.devRef .tc Cert.ReferenceIdeal.main_v121)
      = Host.divf (addf (addf (WR (Proc.devRef .tc Cert.ReferenceIdeal.main_v55)) (WR (Proc.devRef .tc Cert.ReferenceIdeal.main_v52))) (WR (Proc.devRef .tc Cert.ReferenceIdeal.main_v20)))
          (broadcastInDim Cert.ReferenceIdeal.S50000x128 ![0, 1] Cert.ReferenceIdeal.Facts₀.bcast_S50000x1_S50000x128_0_1
            (broadcastInDim Cert.ReferenceIdeal.S50000x1 ![0] Cert.ReferenceIdeal.Facts₀.bcast_S50000_S50000x1_0 (WR (Proc.devRef .tc Cert.ReferenceIdeal.main_v116)))) := by
  after_results

set_option maxHeartbeats 4000000 in
/-- No operation of the reference writes argument 0. -/
theorem ref_kept_arg0 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg0) = WR (Proc.devRef .tc Cert.ReferenceIdeal.main_arg0) := by
  after_results_simp

set_option maxHeartbeats 4000000 in
/-- No operation of the reference writes argument 1. -/
theorem ref_kept_arg1 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg1) = WR (Proc.devRef .tc Cert.ReferenceIdeal.main_arg1) := by
  after_results_simp

set_option maxHeartbeats 4000000 in
/-- No operation of the reference writes argument 2. -/
theorem ref_kept_arg2 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg2) = WR (Proc.devRef .tc Cert.ReferenceIdeal.main_arg2) := by
  after_results_simp

set_option maxHeartbeats 4000000 in
/-- No operation of the reference writes argument 3. -/
theorem ref_kept_arg3 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg3) = WR (Proc.devRef .tc Cert.ReferenceIdeal.main_arg3) := by
  after_results_simp

set_option maxHeartbeats 4000000 in
/-- No operation of the reference writes argument 4. -/
theorem ref_kept_arg4 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg4) = WR (Proc.devRef .tc Cert.ReferenceIdeal.main_arg4) := by
  after_results_simp

set_option maxHeartbeats 4000000 in
/-- No operation of the reference writes argument 5. -/
theorem ref_kept_arg5 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg5) = WR (Proc.devRef .tc Cert.ReferenceIdeal.main_arg5) := by
  after_results_simp

set_option maxHeartbeats 4000000 in
/-- No operation of the reference writes argument 6. -/
theorem ref_kept_arg6 :
    after (Cert.ReferenceIdeal.HostRun.combineOps (F := F)) (after (Cert.ReferenceIdeal.HostRun.aggregateOps (F := F)) (after (Cert.ReferenceIdeal.HostRun.normalizeOps (F := F)) WR))
      (Proc.devRef .tc Cert.ReferenceIdeal.main_arg6) = WR (Proc.devRef .tc Cert.ReferenceIdeal.main_arg6) := by
  after_results_simp

end Cert.Reads

end
-- ==== Proof.NormalizeBlocks.lean ====
/-
  The first region: normalizing and scaling the node features, row block by row block.

  The region has ten points. Point t reads rows [5000 t, 5000 t + 5000) of the node features x and the whole of five
  one-row arrays — the column means μ, the column variances v, γ, β and the scale k — and writes the same rows of its
  output. On a row block the body computes, entry by entry,
      ((((x − μ) · rsqrt(v + ε)) · γ) + β) · k ,
  each one-row array broadcast down the rows. So the entry (r, q) of what point t writes depends only on x at row
  5000 t + r, column q, and on the one-row arrays at column q: the blocks are the restrictions of ONE function of the whole
  arrays (`normalized`), and since the ten blocks tile the 50000 rows, the output array ends holding that function.
-/
import proofs.«137147_j34394098106414_2_alg».proof.Proof.Gen.KernelIdeal.Frame
import Idealize.ShloMosaic.Lib.Pipeline.Value
import Idealize.ShloMosaic.Lib.ValueIdx

set_option maxRecDepth 16384

noncomputable section

namespace Cert.KernelIdeal.Normalize

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The entry of a one-row array that sits above (or below) a given entry of a many-row array: row 0, same column. -/
abbrev above {n : Nat} (i : (⟨2, ![n, 128]⟩ : Shape).Idx) : S1x128.Idx :=
  fun a => match a with | ⟨0, _⟩ => (0 : Fin 1) | ⟨1, _⟩ => (⟨(i 1).val, (i 1).isLt⟩ : Fin 128)

/-- One entry of the normalized, scaled features from the entry of x and the entries of the one-row arrays above it. -/
abbrev normalizedAt (x μ v γ β k : F .f32) : F .f32 :=
  FloatOps.mulf (FloatOps.addf (FloatOps.mulf (FloatOps.mulf (FloatOps.subf x μ)
    (FloatOps.rsqrt (FloatOps.addf v (FloatOps.ofBits .f32 0x3727C5AC#32)))) γ) β) k

/-- The normalized, scaled features as one function of the whole arrays, entry by entry. -/
abbrev normalized (x : S50000x128.Idx → Elt F .f32) (μ v γ β k : S1x128.Idx → Elt F .f32) : S50000x128.Idx → Elt F .f32 :=
  fun i => normalizedAt (x i) (μ (above i)) (v (above i)) (γ (above i)) (β (above i)) (k (above i))

theorem zeros2 : (![0, 0] : Fin 2 → Nat) = fun _ => 0 := funext fun a => by fin_cases a <;> rfl

/-- A one-row array broadcast down 5000 rows reads, at an entry, the one-row array's entry above it. -/
theorem broadcast_rows_apply (x : Vec F S1x128 .f32) (h : S1x128.Broadcasts S5000x128) (j : S5000x128.Idx) :
    broadcastTo S5000x128 x h j = x (above j) :=
  broadcastTo_apply x h j (above j) (fun a => by match a with | ⟨0, _⟩ => rfl | ⟨1, _⟩ => rfl)

/-- The body's arithmetic at an entry of the block: the normalized entry of the loaded blocks' entries. -/
theorem payload_apply (x0 : Vec F S5000x128 .f32) (x1 x2 x3 x4 x5 : Vec F S1x128 .f32) (j : S5000x128.Idx) :
    k0_pay1 x0 x1 x2 x3 x4 x5 j
      = normalizedAt (x0 j) (x1 (above j)) (x2 (above j)) (x3 (above j)) (x4 (above j)) (x5 (above j)) := by
  unfold k0_pay1
  simp only [shapeCast_self]
  show FloatOps.mulf (FloatOps.addf (FloatOps.mulf (FloatOps.mulf (FloatOps.subf (x0 j) (broadcastTo S5000x128 x1 _ j))
    (broadcastTo S5000x128 (rsqrt (addf x2 (broadcast S1x128 (Scalar.ofBits .f32 0x3727C5AC#32)))) _ j)) (broadcastTo S5000x128 x3 _ j))
    (broadcastTo S5000x128 x4 _ j)) (broadcastTo S5000x128 x5 _ j) = _
  rw [broadcast_rows_apply, broadcast_rows_apply, broadcast_rows_apply, broadcast_rows_apply, broadcast_rows_apply]
  rfl

/-- The printed index maps, decided over the ten points: the feature window moves with the output window, the one-row
    windows stay at block (0, 0), the output's block index is (t, 0). -/
theorem index_facts : ∀ t : Fin cfg0.N, win0_0.index t (0 : Fin 2) = win0_6.index t (0 : Fin 2)
    ∧ win0_0.index t (1 : Fin 2) = 0 ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 :=
  (by decide +kernel : ∀ t : Fin grid0.N, _)

/-- Every row block is some point's. -/
theorem index_onto : ∀ q : Fin 10, ∃ t : Fin cfg0.N, win0_6.index t = ![q.val, 0] :=
  (by decide +kernel : ∀ q : Fin 10, ∃ t : Fin grid0.N, win0_6.index t = ![q.val, 0])

section
variable (V : (c : Dev nD) → (b : Ref sig .tc) → Buf (Elt F) ((c : Thread nD τ).loc b))

/-- What point t writes back is block t of the normalized features of the arrays the region finds. -/
theorem flushed_eq (c : Dev nD) (t : Fin cfg0.N) :
    (dat0 V c).flushed 6 t = ((cfg0.win 6).blk t).view.read (Elt F)
      (normalized (V c main_arg0) (V c main_v4) (V c main_v5) (V c main_v6) (V c main_v7) (V c main_arg4)) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S1x128) zeros2]
  obtain ⟨e0, e1, e2, e3, e4, e5, e6, e7, e8, e9, e10, e11, e12, e13⟩ := index_facts t
  funext j
  refine (payload_apply (iblk0 V c 0 t) (iblk0 V c 1 t) (iblk0 V c 2 t) (iblk0 V c 3 t) (iblk0 V c 4 t) (iblk0 V c 5 t) j).trans ?_
  show normalizedAt (V c main_arg0 (((cfg0.win 0).blk t).view.emb j)) (V c main_v4 (((cfg0.win 1).blk t).view.emb (above j)))
      (V c main_v5 (((cfg0.win 2).blk t).view.emb (above j))) (V c main_v6 (((cfg0.win 3).blk t).view.emb (above j)))
      (V c main_v7 (((cfg0.win 4).blk t).view.emb (above j))) (V c main_arg4 (((cfg0.win 5).blk t).view.emb (above j)))
    = normalizedAt (V c main_arg0 (((cfg0.win 6).blk t).view.emb j)) (V c main_v4 (above (((cfg0.win 6).blk t).view.emb j)))
      (V c main_v5 (above (((cfg0.win 6).blk t).view.emb j))) (V c main_v6 (above (((cfg0.win 6).blk t).view.emb j)))
      (V c main_v7 (above (((cfg0.win 6).blk t).view.emb j))) (V c main_arg4 (above (((cfg0.win 6).blk t).view.emb j)))
  have hj0 : (j 0).val < 5000 := (j 0).isLt
  have hj1 : (j 1).val < 128 := (j 1).isLt
  have h0 : ((cfg0.win 0).blk t).view.emb j = ((cfg0.win 6).blk t).view.emb j := by
    funext a; apply Fin.ext
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * (j 1).val = win0_6.index t (1 : Fin 2) * 128 + 1 * (j 1).val; omega
  have h1 : ((cfg0.win 1).blk t).view.emb (above j) = above (((cfg0.win 6).blk t).view.emb j) := by
    funext a; apply Fin.ext
    match a with
    | ⟨0, _⟩ => show win0_1.index t (0 : Fin 2) * 1 + 1 * 0 = 0; omega
    | ⟨1, _⟩ => show win0_1.index t (1 : Fin 2) * 128 + 1 * (j 1).val = win0_6.index t (1 : Fin 2) * 128 + 1 * (j 1).val; omega
  have h2 : ((cfg0.win 2).blk t).view.emb (above j) = above (((cfg0.win 6).blk t).view.emb j) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_6.index t (1 : Fin 2) * 128 + 1 * (j 1).val; omega
  have h3 : ((cfg0.win 3).blk t).view.emb (above j) = above (((cfg0.win 6).blk t).view.emb j) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_6.index t (1 : Fin 2) * 128 + 1 * (j 1).val; omega
  have h4 : ((cfg0.win 4).blk t).view.emb (above j) = above (((cfg0.win 6).blk t).view.emb j) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega
  have h5 : ((cfg0.win 5).blk t).view.emb (above j) = above (((cfg0.win 6).blk t).view.emb j) := by
    funext a; apply Fin.ext
    match a with
    | ⟨0, _⟩ => show win0_5.index t (0 : Fin 2) * 1 + 1 * 0 = 0; omega
    | ⟨1, _⟩ => show win0_5.index t (1 : Fin 2) * 128 + 1 * (j 1).val = win0_6.index t (1 : Fin 2) * 128 + 1 * (j 1).val; omega
  rw [h0, h1, h2, h3, h4, h5]

/-- An entry of the array is in point t's block iff each coordinate is in the block's range on its axis. -/
theorem mem_block (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v8).slice (win0_6.rect t)).set ↔ _
  rw [View.set_slice_whole, Rect.mem_set_unit]
  exact Iff.rfl

/-- The ten row blocks tile the array: row r is in the block of point r / 5000. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the normalized, scaled features of the arrays the region finds. -/
theorem final (c : Dev nD) : (dat0 V c).arrAt 6 cfg0.N
    = normalized (V c main_arg0) (V c main_v4) (V c main_v5) (V c main_v6) (V c main_v7) (V c main_arg4) :=
  (dat0 V c).arrAt_eq_of_cover 6 _ (fun t _ => flushed_eq V c t) covered

end

end Cert.KernelIdeal.Normalize

end
-- ==== Proof.CombineBlocks.lean ====
/-
  The second region: the final combine, row block by row block.

  The region has ten points. Point t reads rows [5000 t, 5000 t + 5000) of three arrays — the incoming sums a, the outgoing
  sums b, the normalized features y — and the same rows of a one-column array w (the reciprocal degrees), and writes the same
  rows of its output. On a row block the body computes, entry by entry,  ((a + b) + y) · w , the column broadcast along the
  rows. So the entry (r, q) of what point t writes depends only on row 5000 t + r of the four arrays: the blocks are the
  restrictions of ONE function of the whole arrays (`combined`), and the ten blocks tile the 50000 rows, so the output array
  ends holding that function.
-/
import proofs.«137147_j34394098106414_2_alg».proof.Proof.Gen.KernelIdeal.Frame
import Idealize.ShloMosaic.Lib.Pipeline.Value
import Idealize.ShloMosaic.Lib.ValueIdx

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The entry of a one-column array that sits beside a given entry of a 128-column array: same row, column 0. -/
abbrev beside {n : Nat} (i : (⟨2, ![n, 128]⟩ : Shape).Idx) : (⟨2, ![n, 1]⟩ : Shape).Idx :=
  fun a => match a with | ⟨0, _⟩ => (⟨(i 0).val, (i 0).isLt⟩ : Fin n) | ⟨1, _⟩ => (0 : Fin 1)

/-- The final combine as one function of the whole arrays, entry by entry: ((a + b) + y) · w, w read beside the entry. -/
abbrev combined (a b y : S50000x128.Idx → Elt F .f32) (w : S50000x1.Idx → Elt F .f32) : S50000x128.Idx → Elt F .f32 :=
  fun i => FloatOps.mulf (FloatOps.addf (FloatOps.addf (a i) (b i)) (y i)) (w (beside i))

theorem zeros2 : (![0, 0] : Fin 2 → Nat) = fun _ => 0 := funext fun a => by fin_cases a <;> rfl

/-- A one-column array broadcast along 128 columns reads, at an entry, the column's entry beside it. -/
theorem broadcast_columns_apply (x : Vec F S5000x1 .f32) (h : S5000x1.Broadcasts S5000x128) (j : S5000x128.Idx) :
    broadcastTo S5000x128 x h j = x (beside j) :=
  broadcastTo_apply x h j (beside j) (fun a => by match a with | ⟨0, _⟩ => rfl | ⟨1, _⟩ => rfl)

/-- The body's arithmetic at an entry of the block. -/
theorem payload_apply (x0 x1 x2 : Vec F S5000x128 .f32) (x3 : Vec F S5000x1 .f32) (j : S5000x128.Idx) :
    k1_pay1 x0 x1 x2 x3 j = FloatOps.mulf (FloatOps.addf (FloatOps.addf (x0 j) (x1 j)) (x2 j)) (x3 (beside j)) := by
  unfold k1_pay1
  simp only [shapeCast_self]
  show FloatOps.mulf (FloatOps.addf (FloatOps.addf (x0 j) (x1 j)) (x2 j)) (broadcastTo S5000x128 x3 _ j) = _
  rw [broadcast_columns_apply]

/-- The printed index maps, decided over the ten points: every input window moves with the output window, whose block
    index is (t, 0). -/
theorem index_facts : ∀ t : Fin cfg1.N, win1_0.index t (0 : Fin 2) = win1_4.index t (0 : Fin 2)
    ∧ win1_1.index t (0 : Fin 2) = win1_4.index t (0 : Fin 2)
    ∧ win1_2.index t (0 : Fin 2) = win1_4.index t (0 : Fin 2)
    ∧ win1_3.index t (0 : Fin 2) = win1_4.index t (0 : Fin 2)
    ∧ win1_0.index t (1 : Fin 2) = 0 ∧ win1_1.index t (1 : Fin 2) = 0 ∧ win1_2.index t (1 : Fin 2) = 0
    ∧ win1_3.index t (1 : Fin 2) = 0 ∧ win1_4.index t (1 : Fin 2) = 0
    ∧ win1_4.index t (0 : Fin 2) ≤ 9 :=
  (by decide +kernel : ∀ t : Fin grid1.N, _)

/-- Every row block is some point's. -/
theorem index_onto : ∀ q : Fin 10, ∃ t : Fin cfg1.N, win1_4.index t = ![q.val, 0] :=
  (by decide +kernel : ∀ q : Fin 10, ∃ t : Fin grid1.N, win1_4.index t = ![q.val, 0])

section
variable (V : (c : Dev nD) → (b : Ref sig .tc) → Buf (Elt F) ((c : Thread nD τ).loc b))

/-- What point t writes back is block t of the combine of the arrays the region finds. -/
theorem flushed_eq (c : Dev nD) (t : Fin cfg1.N) :
    (dat1 V c).flushed 4 t = ((cfg1.win 4).blk t).view.read (Elt F)
      (combined (V c main_v40) (V c main_v43) (V c main_v8) (V c main_v107)) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S5000x1) zeros2]
  obtain ⟨e0, e1, e2, e3, e4, e5, e6, e7, e8, e9⟩ := index_facts t
  funext j
  refine (payload_apply (iblk1 V c 0 t) (iblk1 V c 1 t) (iblk1 V c 2 t) (iblk1 V c 3 t) j).trans ?_
  show FloatOps.mulf (FloatOps.addf (FloatOps.addf (V c main_v40 (((cfg1.win 0).blk t).view.emb j)) (V c main_v43 (((cfg1.win 1).blk t).view.emb j)))
      (V c main_v8 (((cfg1.win 2).blk t).view.emb j))) (V c main_v107 (((cfg1.win 3).blk t).view.emb (beside j)))
    = FloatOps.mulf (FloatOps.addf (FloatOps.addf (V c main_v40 (((cfg1.win 4).blk t).view.emb j)) (V c main_v43 (((cfg1.win 4).blk t).view.emb j)))
      (V c main_v8 (((cfg1.win 4).blk t).view.emb j))) (V c main_v107 (beside (((cfg1.win 4).blk t).view.emb j)))
  have hj0 : (j 0).val < 5000 := (j 0).isLt
  have hj1 : (j 1).val < 128 := (j 1).isLt
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb (beside j) = beside (((cfg1.win 4).blk t).view.emb j) := by
    funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 1 + 1 * 0 = 0; omega
  rw [h0, h1, h2, h3]

/-- An entry of the array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v108).slice (win1_4.rect t)).set ↔ _
  rw [View.set_slice_whole, Rect.mem_set_unit]
  exact Iff.rfl

/-- The ten row blocks tile the array: row r is in the block of point r / 5000. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the combine of the arrays the region finds. -/
theorem final (c : Dev nD) : (dat1 V c).arrAt 4 cfg1.N
    = combined (V c main_v40) (V c main_v43) (V c main_v8) (V c main_v107) :=
  (dat1 V c).arrAt_eq_of_cover 4 _ (fun t _ => flushed_eq V c t) covered

end

end Cert.KernelIdeal.Combine

end
-- ==== Proof.LibTanhSlope.lean ====
/-
  The slope of tanh over the extended reals, in its two spellings.

  A program that differentiates through tanh writes the slope either with tanh itself, 1 − tanh² h, or with
  exponentials, 4 / (e^(−h) + e^h)² (the square written as a product). On a real both are 1 / cosh² h; at +∞ and −∞
  the sum of exponentials is +∞, so the quotient is 0, while tanh is ±1, so 1 − tanh² is 0 as well. Hence the two
  spellings are ONE function on every extended real (slope_eq), with no finiteness assumption. The values of the two
  float constants the spellings use (1.0 and 4.0) are stated beside it.
-/
import Idealize.ShloMosaic.PureOps.Ideal
import Idealize.ShloMosaic.PureOps.Ideal.Laws

noncomputable section

namespace Cert.TanhSlope

open Idealize.ShloMosaic

/-! ## The two float constants -/

/-- The pattern of 1.0 denotes 1. -/
theorem ofBits_one : Ideal.ofBits .f32 0x3F800000#32 = 1 := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-! ## The slope of tanh, in its two spellings -/

/-- The slope of tanh written with tanh itself. -/
def slope (h : EReal) : EReal := 1 - Ideal.tanh h * Ideal.tanh h

/-- On the reals, 4 / (e^(−r) + e^r)² = 1 − tanh² r: both are 1 / cosh² r. -/
theorem real_slope (r : ℝ) :
    4 * (1 / ((Real.exp (-r) + Real.exp r) * (Real.exp (-r) + Real.exp r))) = 1 - Real.tanh r * Real.tanh r := by
  have hc : Real.cosh r ≠ 0 := ne_of_gt (Real.cosh_pos r)
  have he : Real.exp (-r) + Real.exp r = 2 * Real.cosh r := by rw [Real.cosh_eq]; ring
  have hs := Real.cosh_sq r
  rw [he, Real.tanh_eq_sinh_div_cosh]
  field_simp
  nlinarith [hs]

/-- The slope written with exponentials is the slope written with tanh, at every extended real: on a real both are
    1 / cosh², and at either infinity the sum of exponentials is +∞, so the quotient is 0, while tanh is ±1. -/
theorem slope_eq (h : EReal) :
    Ideal.div ((4 : ℝ) : EReal) ((Ideal.exp (-h) + Ideal.exp h) * (Ideal.exp (-h) + Ideal.exp h)) = slope h := by
  unfold slope
  induction h using EReal.rec with
  | bot =>
    simp [Ideal.div]
    rw [← EReal.coe_one, ← EReal.coe_sub, sub_self, EReal.coe_zero]
  | top =>
    simp [Ideal.div]
    rw [← EReal.coe_one, ← EReal.coe_sub, sub_self, EReal.coe_zero]
  | coe r =>
    have hpos : (0 : ℝ) < (Real.exp (-r) + Real.exp r) * (Real.exp (-r) + Real.exp r) := by positivity
    rw [← EReal.coe_neg, Ideal.exp_coe, Ideal.exp_coe, Ideal.tanh_coe, ← EReal.coe_add, ← EReal.coe_mul,
      Ideal.div_coe (ne_of_gt hpos), ← EReal.coe_mul, ← EReal.coe_mul, ← EReal.coe_one, ← EReal.coe_sub, real_slope]

end Cert.TanhSlope

end
-- ==== Proof.Degree.lean ====
/-
  Two facts about extended reals behind the degree normalization.

  (1) Dividing by d and multiplying by the reciprocal 1/d are the same function of the numerator whenever d ≠ 0: off zero,
  the quotient a / d is by definition a · d⁻¹, and 1 / d is 1 · d⁻¹ = d⁻¹. (At d = 0 they differ: 0 / 0 is −∞ while
  0 · (1/0) = 0 · ∞ = 0; so the fact below is used only with d ≥ 1.)

  (2) A degree vector that starts at one and receives accumulating scatters of NONNEGATIVE increments stays ≥ 1 at every
  entry: an accumulating scatter replaces some entries x[n] by x[n] + u with u an update, and leaves the others; by induction
  on the updates every entry stays ≥ 1. The increments here are 0/1 flags converted to floats, hence nonnegative.
-/
import Idealize.ShloMosaic.PureOps.Ideal
import Idealize.ShloMosaic.PureOps.Ideal.Laws
import Idealize.ShloMosaic.PureOps.ShapeOps
import Idealize.ShloMosaic.PureOps.Vector
import proofs.«137147_j34394098106414_2_alg».proof.Proof.LibTanhSlope

noncomputable section

namespace Cert.Degree

open Idealize.ShloMosaic

/-- Off zero, the product with the reciprocal is the quotient, for every extended-real numerator. -/
theorem mul_recip (a d : EReal) (hd : d ≠ 0) : a * Ideal.div 1 d = Ideal.div a d := by
  unfold Ideal.div
  rw [if_neg hd, if_neg hd, one_mul]

/-- An extended real that is at least one is not zero. -/
theorem ne_zero_of_one_le {d : EReal} (h : 1 ≤ d) : d ≠ 0 := by
  intro e
  rw [e] at h
  exact absurd h (by norm_num)

/-- An accumulating scatter of nonnegative updates into an array whose entries are all ≥ 1 leaves them all ≥ 1: each update
    either is dropped, or replaces one entry x[n] by x[n] + u with u ≥ 0. -/
theorem scatter_add_ge_one {s si u : Shape} {w : Nat} (d : ScatterDims s si u) (x : s.Idx → EReal) (idx : IVec si w)
    (upd : u.Idx → EReal) (hx : ∀ i, 1 ≤ x i) (hu : ∀ j, 0 ≤ upd j) :
    ∀ i, 1 ≤ Host.scatter d (FloatOps.addf (F := Ideal) (φ := .f32)) x idx upd i := by
  unfold Host.scatter
  generalize List.finRange u.numel = L
  induction L generalizing x with
  | nil => exact hx
  | cons n L ih =>
    rw [List.foldl_cons]
    refine ih _ (fun i => ?_)
    generalize d.resultIdx? (u.rowMajor.symm n) idx = o
    cases o with
    | none => exact hx i
    | some i₀ =>
      show 1 ≤ if i = i₀ then x i₀ + upd (u.rowMajor.symm n) else x i
      by_cases h : i = i₀
      · rw [if_pos h]; exact le_trans (hx i₀) (le_add_of_nonneg_right (hu _))
      · rw [if_neg h]; exact hx i

/-- A 0/1 flag converted to a float is nonnegative. -/
theorem flag_nonneg {s : Shape} (b : IVec s 1) (j : s.Idx) : (0 : EReal) ≤ (uitofp (F := Ideal) .f32 b) j :=
  EReal.coe_nonneg.mpr (Nat.cast_nonneg _)

/-- The splat of the pattern of 1.0 is at least one at every entry. -/
theorem ones_ge_one {s : Shape} (x : s.Idx → EReal) (h : ∀ i, x i = Ideal.ofBits .f32 0x3F800000#32) : ∀ i, 1 ≤ x i :=
  fun i => by rw [h i, Cert.TanhSlope.ofBits_one]

end Cert.Degree

end
-- ==== Proof.Entries.lean ====
/-
  The two programs' spellings, entry by entry.

  Normalizing. The kernel hands its first region the column statistics and γ, β as one-row arrays (a length-128 vector
  reshaped to [1, 128]) and the region reads, above the entry (r, q), their entry (0, q); the reference broadcasts the
  length-128 vectors to [1, 128] and then down the 50000 rows and reads entry (r, q). Both read the vector at q, and both then
  compute  ((((x − μ) · rsqrt(v + ε)) · γ) + β) · k  with the same grouping, the same ε pattern, and the one function rsqrt of
  the extended reals: one value.

  Combining. The kernel multiplies (in + out) + y by the column of reciprocal degrees 1/d (a length-50000 vector divided into
  ones, reshaped to [50000, 1], read beside the entry); the reference divides (out + in) + y by the degree vector broadcast
  to [50000, 1] and then along the rows. Both read the degree at the row r; the sums differ by one commutation; and for a
  degree ≥ 1 the product with the reciprocal is the quotient: one value.
-/
import proofs.«137147_j34394098106414_2_alg».proof.Proof.NormalizeBlocks
import proofs.«137147_j34394098106414_2_alg».proof.Proof.CombineBlocks
import proofs.«137147_j34394098106414_2_alg».proof.Proof.Degree
import Idealize.ShloMosaic.Lib.Pipeline.Value
import Idealize.ShloMosaic.Lib.ValueIdx
import Idealize.ShloMosaic.PureOps.Ideal

set_option maxRecDepth 16384

noncomputable section

namespace Cert.Entries

open Cert.KernelIdeal Idealize.ShloMosaic Idealize.ShloMosaic.ValueIdx
open Cert.KernelIdeal.Normalize (above normalizedAt normalized)
open Cert.KernelIdeal.Combine (beside combined)

/-- The column of an entry, as an index of a length-128 vector. -/
abbrev col (i : S50000x128.Idx) : S128.Idx := fun a => match a with | ⟨0, _⟩ => (⟨(i 1).val, (i 1).isLt⟩ : Fin 128)

/-- The row of an entry, as an index of a length-50000 vector. -/
abbrev row (i : S50000x128.Idx) : S50000.Idx := fun a => match a with | ⟨0, _⟩ => (⟨(i 0).val, (i 0).isLt⟩ : Fin 50000)

variable {α : Type}

/-- A length-128 vector reshaped to one row, read above an entry, is the vector at the entry's column. -/
theorem reshape_row_apply (v : S128.Idx → α) (h : S128.ShapeCasts S1x128) (i : S50000x128.Idx) :
    shapeCast S1x128 v h (above i) = v (col i) :=
  shapeCast_apply v h (above i) (col i) (by
    rw [Shape.rowMajor_val_one, Shape.rowMajor_val_two]
    show (i 1).val = 0 * 128 + (i 1).val
    omega)

/-- A length-128 vector broadcast to one row and then down the rows, read at an entry, is the vector at the entry's column. -/
theorem broadcast_vector_apply (v : S128.Idx → α) (h1 : S128.BroadcastsInDim S1x128 ![1]) (h2 : S1x128.BroadcastsInDim S50000x128 ![0, 1])
    (i : S50000x128.Idx) : broadcastInDim S50000x128 ![0, 1] h2 (broadcastInDim S1x128 ![1] h1 v) i = v (col i) := by
  rw [broadcastInDim_apply ![0, 1] h2 _ i (above i) (fun a => by match a with | ⟨0, _⟩ => rfl | ⟨1, _⟩ => rfl)]
  exact broadcastInDim_apply ![1] h1 v (above i) (col i) (fun a => by match a with | ⟨0, _⟩ => rfl)

/-- A one-row array broadcast down the rows, read at an entry, is its entry above. -/
theorem broadcast_row_apply (k : S1x128.Idx → α) (h2 : S1x128.BroadcastsInDim S50000x128 ![0, 1]) (i : S50000x128.Idx) :
    broadcastInDim S50000x128 ![0, 1] h2 k i = k (above i) :=
  broadcastInDim_apply ![0, 1] h2 k i (above i) (fun a => by match a with | ⟨0, _⟩ => rfl | ⟨1, _⟩ => rfl)

/-- A length-50000 vector reshaped to one column, read beside an entry, is the vector at the entry's row. -/
theorem reshape_column_apply (v : S50000.Idx → α) (h : S50000.ShapeCasts S50000x1) (i : S50000x128.Idx) :
    shapeCast S50000x1 v h (beside i) = v (row i) :=
  shapeCast_apply v h (beside i) (row i) (by
    rw [Shape.rowMajor_val_one, Shape.rowMajor_val_two]
    show (i 0).val = (i 0).val * 1 + 0
    omega)

/-- A length-50000 vector broadcast to one column and then along the rows, read at an entry, is the vector at the entry's row. -/
theorem broadcast_degree_apply (v : S50000.Idx → α) (h1 : S50000.BroadcastsInDim S50000x1 ![0]) (h2 : S50000x1.BroadcastsInDim S50000x128 ![0, 1])
    (i : S50000x128.Idx) : broadcastInDim S50000x128 ![0, 1] h2 (broadcastInDim S50000x1 ![0] h1 v) i = v (row i) := by
  rw [broadcastInDim_apply ![0, 1] h2 _ i (beside i) (fun a => by match a with | ⟨0, _⟩ => rfl | ⟨1, _⟩ => rfl)]
  exact broadcastInDim_apply ![0] h1 v (beside i) (row i) (fun a => by match a with | ⟨0, _⟩ => rfl)

/-- NORMALIZING, entry by entry: the kernel's reading of the reshaped statistics is the reference's reading of the
    broadcast ones, and the arithmetic is the same. -/
theorem normalize_entry (x : S50000x128.Idx → EReal) (μ v γ β : S128.Idx → EReal) (k : S1x128.Idx → EReal)
    (hc : S128.ShapeCasts S1x128) (h0 : S_.BroadcastsInDim S128 ![]) (h1 : S128.BroadcastsInDim S1x128 ![1])
    (h2 : S1x128.BroadcastsInDim S50000x128 ![0, 1]) (i : S50000x128.Idx) :
    normalized (F := Ideal) x (shapeCast S1x128 μ hc) (shapeCast S1x128 v hc) (shapeCast S1x128 γ hc) (shapeCast S1x128 β hc) k i
      = mulf (addf (mulf (mulf (subf x (broadcastInDim S50000x128 ![0, 1] h2 (broadcastInDim S1x128 ![1] h1 μ)))
          (broadcastInDim S50000x128 ![0, 1] h2 (broadcastInDim S1x128 ![1] h1
            (Host.rsqrt (F := Ideal) (φ := .f32) (addf v (broadcastInDim S128 ![] h0 (constant (F := Ideal) S_ .f32 0x3727C5AC#32)))))))
          (broadcastInDim S50000x128 ![0, 1] h2 (broadcastInDim S1x128 ![1] h1 γ)))
          (broadcastInDim S50000x128 ![0, 1] h2 (broadcastInDim S1x128 ![1] h1 β)))
          (broadcastInDim S50000x128 ![0, 1] h2 k) i := by
  show normalizedAt (F := Ideal) (x i) (shapeCast S1x128 μ hc (above i)) (shapeCast S1x128 v hc (above i))
      (shapeCast S1x128 γ hc (above i)) (shapeCast S1x128 β hc (above i)) (k (above i))
    = FloatOps.mulf (FloatOps.addf (FloatOps.mulf (FloatOps.mulf (FloatOps.subf (x i)
        (broadcastInDim S50000x128 ![0, 1] h2 (broadcastInDim S1x128 ![1] h1 μ) i))
        (broadcastInDim S50000x128 ![0, 1] h2 (broadcastInDim S1x128 ![1] h1
            (Host.rsqrt (F := Ideal) (φ := .f32) (addf v (broadcastInDim S128 ![] h0 (constant (F := Ideal) S_ .f32 0x3727C5AC#32))))) i))
        (broadcastInDim S50000x128 ![0, 1] h2 (broadcastInDim S1x128 ![1] h1 γ) i))
        (broadcastInDim S50000x128 ![0, 1] h2 (broadcastInDim S1x128 ![1] h1 β) i))
        (broadcastInDim S50000x128 ![0, 1] h2 k i)
  rw [reshape_row_apply, reshape_row_apply, reshape_row_apply, reshape_row_apply,
    broadcast_vector_apply, broadcast_vector_apply, broadcast_vector_apply, broadcast_vector_apply, broadcast_row_apply]
  rfl

/-- COMBINING, entry by entry: for degrees ≥ 1 the product with the reciprocal column is the quotient by the broadcast
    degrees, and the two sums differ by one commutation. -/
theorem combine_entry (a b y : S50000x128.Idx → EReal) (d : S50000.Idx → EReal) (hd : ∀ n, 1 ≤ d n)
    (hc : S50000.ShapeCasts S50000x1) (h0 : S_.BroadcastsInDim S50000 ![]) (h1 : S50000.BroadcastsInDim S50000x1 ![0])
    (h2 : S50000x1.BroadcastsInDim S50000x128 ![0, 1]) (i : S50000x128.Idx) :
    combined (F := Ideal) a b y
        (shapeCast S50000x1 (Host.divf (F := Ideal) (φ := .f32) (broadcastInDim S50000 ![] h0 (constant (F := Ideal) S_ .f32 0x3F800000#32)) d) hc) i
      = Host.divf (F := Ideal) (φ := .f32) (addf (addf b a) y) (broadcastInDim S50000x128 ![0, 1] h2 (broadcastInDim S50000x1 ![0] h1 d)) i := by
  show ((a i + b i) + y i) * (shapeCast S50000x1 (Host.divf (F := Ideal) (φ := .f32) (broadcastInDim S50000 ![] h0 (constant (F := Ideal) S_ .f32 0x3F800000#32)) d) hc (beside i))
    = Ideal.div ((b i + a i) + y i) (broadcastInDim S50000x128 ![0, 1] h2 (broadcastInDim S50000x1 ![0] h1 d) i)
  rw [reshape_column_apply, broadcast_degree_apply]
  show ((a i + b i) + y i) * Ideal.div (Ideal.ofBits .f32 0x3F800000#32) (d (row i)) = Ideal.div ((b i + a i) + y i) (d (row i))
  rw [Cert.TanhSlope.ofBits_one, Cert.Degree.mul_recip _ _ (Cert.Degree.ne_zero_of_one_le (hd _)), add_comm (a i) (b i)]

end Cert.Entries

end
-- ==== Proof.NormalizeBridge.lean ====
/-
  The normalized features on the two sides.

  Before its first region the kernel's program computes, on the host, the column means and the column variances of x (the
  same operations as the reference's, the variance function included) and reshapes them, γ and β to one-row arrays; the region
  then normalizes row block by row block. The reference does everything on the host. With the entry identity of the two
  spellings, the region's output array — the function `normalized` of the region's entry contents — is the reference's
  buffer of normalized features, as whole arrays, whenever the two programs start from the same x, γ, β and k.
-/
import proofs.«137147_j34394098106414_2_alg».proof.Proof.RefRun
import proofs.«137147_j34394098106414_2_alg».proof.Proof.Entries
import proofs.«137147_j34394098106414_2_alg».proof.Proof.Gen.KernelIdeal.Launch
import Idealize.ShloMosaic.Lib.StableHlo.Run
import Idealize.ShloMosaic.PureOps.Ideal

set_option maxRecDepth 16384

noncomputable section

namespace Cert.NormalizeBridge

open Idealize.ShloMosaic Idealize.ShloMosaic.TcCoe Idealize.ShloMosaic.StableHlo

/-- The kernel's buffer contents when its first region is entered: the three host stretches folded over the contents `W`. -/
abbrev entry (W : Valuation Cert.KernelIdeal.τ Cert.KernelIdeal.sig (Elt Ideal)) : Valuation Cert.KernelIdeal.τ Cert.KernelIdeal.sig (Elt Ideal) :=
  after (Cert.KernelIdeal.Gen.hostOps0_2 (F := Ideal)) (after (Cert.KernelIdeal.Gen.hostOps0_1 (F := Ideal)) (after (Cert.KernelIdeal.Gen.hostOps0 (F := Ideal)) W))

variable (WK : Valuation Cert.KernelIdeal.τ Cert.KernelIdeal.sig (Elt Ideal)) (WR : Valuation Cert.ReferenceIdeal.τ Cert.ReferenceIdeal.sig (Elt Ideal))
variable (h0 : (WK (Proc.devRef .tc Cert.KernelIdeal.main_arg0) : Cert.KernelIdeal.S50000x128.Idx → Elt Ideal .f32) = WR (Proc.devRef .tc Cert.ReferenceIdeal.main_arg0))
variable (h2 : (WK (Proc.devRef .tc Cert.KernelIdeal.main_arg2) : Cert.KernelIdeal.S128.Idx → Elt Ideal .f32) = WR (Proc.devRef .tc Cert.ReferenceIdeal.main_arg2))
variable (h3 : (WK (Proc.devRef .tc Cert.KernelIdeal.main_arg3) : Cert.KernelIdeal.S128.Idx → Elt Ideal .f32) = WR (Proc.devRef .tc Cert.ReferenceIdeal.main_arg3))
variable (h4 : (WK (Proc.devRef .tc Cert.KernelIdeal.main_arg4) : Cert.KernelIdeal.S1x128.Idx → Elt Ideal .f32) = WR (Proc.devRef .tc Cert.ReferenceIdeal.main_arg4))

include h0 h2 h3 h4 in
set_option maxHeartbeats 4000000 in
/-- The first region's function of its entry contents is the reference's buffer of normalized features. -/
theorem features_eq :
    Cert.KernelIdeal.Normalize.normalized (F := Ideal) (entry WK (Proc.devRef .tc Cert.KernelIdeal.main_arg0)) (entry WK (Proc.devRef .tc Cert.KernelIdeal.main_v4))
        (entry WK (Proc.devRef .tc Cert.KernelIdeal.main_v5)) (entry WK (Proc.devRef .tc Cert.KernelIdeal.main_v6)) (entry WK (Proc.devRef .tc Cert.KernelIdeal.main_v7))
        (entry WK (Proc.devRef .tc Cert.KernelIdeal.main_arg4))
      = (after (Cert.ReferenceIdeal.HostRun.normalizeOps (F := Ideal)) WR (Proc.devRef .tc Cert.ReferenceIdeal.main_v20) : Cert.KernelIdeal.S50000x128.Idx → Elt Ideal .f32) := by
  funext i
  after_results_simp
  rw [h0, h2, h3, h4]
  exact Cert.Entries.normalize_entry _ _ _ _ _ _ _ _ _ _ i

/-- The kernel's host stretches before the first region write no argument array. -/
theorem entry_arg1 : entry WK (Proc.devRef .tc Cert.KernelIdeal.main_arg1) = WK (Proc.devRef .tc Cert.KernelIdeal.main_arg1) := by after_results_simp
theorem entry_arg5 : entry WK (Proc.devRef .tc Cert.KernelIdeal.main_arg5) = WK (Proc.devRef .tc Cert.KernelIdeal.main_arg5) := by after_results_simp
theorem entry_arg6 : entry WK (Proc.devRef .tc Cert.KernelIdeal.main_arg6) = WK (Proc.devRef .tc Cert.KernelIdeal.main_arg6) := by after_results_simp
theorem entry_arg4 : entry WK (Proc.devRef .tc Cert.KernelIdeal.main_arg4) = WK (Proc.devRef .tc Cert.KernelIdeal.main_arg4) := by after_results_simp

/-- The reference's first stretch writes no argument array. -/
theorem ref_arg1 : after (Cert.ReferenceIdeal.HostRun.normalizeOps (F := Ideal)) WR (Proc.devRef .tc Cert.ReferenceIdeal.main_arg1) = WR (Proc.devRef .tc Cert.ReferenceIdeal.main_arg1) := by after_results_simp
theorem ref_arg4 : after (Cert.ReferenceIdeal.HostRun.normalizeOps (F := Ideal)) WR (Proc.devRef .tc Cert.ReferenceIdeal.main_arg4) = WR (Proc.devRef .tc Cert.ReferenceIdeal.main_arg4) := by after_results_simp
theorem ref_arg5 : after (Cert.ReferenceIdeal.HostRun.normalizeOps (F := Ideal)) WR (Proc.devRef .tc Cert.ReferenceIdeal.main_arg5) = WR (Proc.devRef .tc Cert.ReferenceIdeal.main_arg5) := by after_results_simp
theorem ref_arg6 : after (Cert.ReferenceIdeal.HostRun.normalizeOps (F := Ideal)) WR (Proc.devRef .tc Cert.ReferenceIdeal.main_arg6) = WR (Proc.devRef .tc Cert.ReferenceIdeal.main_arg6) := by after_results_simp

end Cert.NormalizeBridge

end
-- ==== Proof.AggregateBridge.lean ====
/-
  The shared host chain between the two regions.

  Between the normalized features y and the final combine, the kernel's program and the reference apply the SAME host
  operations, in a slightly different order, to y, the relation table r, the scale k and the edge arrays: r · k; for every edge
  the rows y[head], y[tail], (r·k)[rel] (negative row numbers wrapped); the segment sums
      in[n] = Σ_{tail e = n} (y[head e] + (r·k)[rel e]) ,   out[n] = Σ_{head e = n} (y[tail e] − (r·k)[rel e]) ;
  and the degree vector d: ones, then six scalar accumulating scatters of 0/1 flags. Read at the three buffers that hold in,
  out and d, the two folds are therefore one term of the buffers they start from — provided those agree.
-/
import proofs.«137147_j34394098106414_2_alg».proof.Proof.RefRun
import proofs.«137147_j34394098106414_2_alg».proof.Proof.Gen.KernelIdeal.Launch
import Idealize.ShloMosaic.Lib.StableHlo.Run
import Idealize.ShloMosaic.PureOps.Ideal
import proofs.«137147_j34394098106414_2_alg».proof.Proof.Degree

set_option maxRecDepth 16384

noncomputable section

namespace Cert.Aggregate

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))
variable (hy : (WK (Proc.devRef .tc Cert.KernelIdeal.main_v8) : Cert.KernelIdeal.S50000x128.Idx → Elt Ideal .f32) = WR (Proc.devRef .tc Cert.ReferenceIdeal.main_v20))
variable (h1 : (WK (Proc.devRef .tc Cert.KernelIdeal.main_arg1) : Cert.KernelIdeal.S1000x128.Idx → Elt Ideal .f32) = WR (Proc.devRef .tc Cert.ReferenceIdeal.main_arg1))
variable (h4 : (WK (Proc.devRef .tc Cert.KernelIdeal.main_arg4) : Cert.KernelIdeal.S1x128.Idx → Elt Ideal .f32) = WR (Proc.devRef .tc Cert.ReferenceIdeal.main_arg4))
variable (h5 : (WK (Proc.devRef .tc Cert.KernelIdeal.main_arg5) : Cert.KernelIdeal.S2x625000.Idx → Elt Ideal .i32) = WR (Proc.devRef .tc Cert.ReferenceIdeal.main_arg5))
variable (h6 : (WK (Proc.devRef .tc Cert.KernelIdeal.main_arg6) : Cert.KernelIdeal.S625000.Idx → Elt Ideal .i32) = WR (Proc.devRef .tc Cert.ReferenceIdeal.main_arg6))

include hy h1 h4 h5 h6 in
set_option maxHeartbeats 4000000 in
/-- The incoming segment sums are one term of the starting buffers. -/
theorem incoming_eq :
    (after (Cert.KernelIdeal.Gen.hostOps1 (F := Ideal)) WK (Proc.devRef .tc Cert.KernelIdeal.main_v40) : Cert.KernelIdeal.S50000x128.Idx → Elt Ideal .f32)
      = after (Cert.ReferenceIdeal.HostRun.aggregateOps (F := Ideal)) WR (Proc.devRef .tc Cert.ReferenceIdeal.main_v52) := by
  after_results_simp
  rw [hy, h1, h4, h5, h6]
  rfl

include hy h1 h4 h5 h6 in
set_option maxHeartbeats 4000000 in
/-- The outgoing segment sums are one term of the starting buffers. -/
theorem outgoing_eq :
    (after (Cert.KernelIdeal.Gen.hostOps1 (F := Ideal)) WK (Proc.devRef .tc Cert.KernelIdeal.main_v43) : Cert.KernelIdeal.S50000x128.Idx → Elt Ideal .f32)
      = after (Cert.ReferenceIdeal.HostRun.aggregateOps (F := Ideal)) WR (Proc.devRef .tc Cert.ReferenceIdeal.main_v55) := by
  after_results_simp
  rw [hy, h1, h4, h5, h6]
  rfl

include h5 h6 in
set_option maxHeartbeats 4000000 in
/-- The degree vectors are one term of the edge arrays. -/
theorem degree_eq :
    (after (Cert.KernelIdeal.Gen.hostOps1 (F := Ideal)) WK (Proc.devRef .tc Cert.KernelIdeal.main_v104) : Cert.KernelIdeal.S50000.Idx → Elt Ideal .f32)
      = after (Cert.ReferenceIdeal.HostRun.aggregateOps (F := Ideal)) WR (Proc.devRef .tc Cert.ReferenceIdeal.main_v116) := by
  after_results_simp
  rw [h5, h6]
  rfl

set_option maxHeartbeats 4000000 in
/-- The kernel's reciprocal-degree column is the reshape of ones divided by its degree vector. -/
theorem recip_column_eq :
    (after (Cert.KernelIdeal.Gen.hostOps1 (F := Ideal)) WK (Proc.devRef .tc Cert.KernelIdeal.main_v107) : Cert.KernelIdeal.S50000x1.Idx → Elt Ideal .f32)
      = shapeCast Cert.KernelIdeal.S50000x1
          (Host.divf (broadcastInDim Cert.KernelIdeal.S50000 ![] Cert.KernelIdeal.Facts₀.bcast_S_S50000 (constant (F := Ideal) Cert.KernelIdeal.S_ .f32 0x3F800000#32))
            (after (Cert.KernelIdeal.Gen.hostOps1 (F := Ideal)) WK (Proc.devRef .tc Cert.KernelIdeal.main_v104)))
          Cert.KernelIdeal.Facts₀.shapeCasts_S50000_S50000x1 := by
  after_results_simp
  rfl

set_option maxHeartbeats 4000000 in
/-- Every degree is at least one: ones, then six accumulating scatters of 0/1 flags. -/
theorem degree_ge_one (n : Cert.ReferenceIdeal.S50000.Idx) :
    (1 : EReal) ≤ (after (Cert.ReferenceIdeal.HostRun.aggregateOps (F := Ideal)) WR (Proc.devRef .tc Cert.ReferenceIdeal.main_v116) : Cert.ReferenceIdeal.S50000.Idx → Elt Ideal .f32) n := by
  revert n
  after_results_simp
  refine Cert.Degree.scatter_add_ge_one _ _ _ _ (Cert.Degree.scatter_add_ge_one _ _ _ _ (Cert.Degree.scatter_add_ge_one _ _ _ _
    (Cert.Degree.scatter_add_ge_one _ _ _ _ (Cert.Degree.scatter_add_ge_one _ _ _ _ (Cert.Degree.scatter_add_ge_one _ _ _ _
      (Cert.Degree.ones_ge_one _ (fun _ => rfl))
      (fun j => Cert.Degree.flag_nonneg _ j)) (fun j => Cert.Degree.flag_nonneg _ j)) (fun j => Cert.Degree.flag_nonneg _ j))
    (fun j => Cert.Degree.flag_nonneg _ j)) (fun j => Cert.Degree.flag_nonneg _ j)) (fun j => Cert.Degree.flag_nonneg _ j)

end Cert.Aggregate

end
-- ==== Proof.Bridge.lean ====
/-
  The two results are one array.

  The idealized kernel's result is its second region's output array: the combine  ((in + out) + y) · w  of the arrays that
  region finds — the two segment sums and the reciprocal-degree column computed by the long host stretch, and the normalized
  features y left by the first region. The reference's result is  ((out + in) + y) / d  of its own buffers. Started from
  the same argument arrays: y is the same array on both sides (the normalize bridge); hence in, out and the degree vector d are
  the same (the shared host chain, one term of what it starts from); the kernel's w is the column of 1/d; every degree is ≥ 1;
  so, entry by entry, the product with 1/d is the quotient by d, and the two sums differ by one commutation.
-/
import proofs.«137147_j34394098106414_2_alg».proof.Proof.KernelRun
import proofs.«137147_j34394098106414_2_alg».proof.Proof.RefRun
import proofs.«137147_j34394098106414_2_alg».proof.Proof.NormalizeBlocks
import proofs.«137147_j34394098106414_2_alg».proof.Proof.CombineBlocks
import proofs.«137147_j34394098106414_2_alg».proof.Proof.Entries
import proofs.«137147_j34394098106414_2_alg».proof.Proof.NormalizeBridge
import proofs.«137147_j34394098106414_2_alg».proof.Proof.AggregateBridge
import proofs.«137147_j34394098106414_2_alg».proof.Proof.RefReads

set_option maxRecDepth 16384

noncomputable section

namespace Cert.Bridge

open Idealize.ShloMosaic Idealize.ShloMosaic.TcCoe Idealize.ShloMosaic.StableHlo Idealize.SL.Sem
open Cert.KernelIdeal.Gen (W0 W3 W4 W5 W6 V3 V5 dat0 dat1 W4_arr W6_arr W4_of_ne A_eq0)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)
variable (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
variable (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
variable (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
variable (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

/-- The reference's buffers after its first stretch. -/
abbrev refNormalized : Valuation Cert.ReferenceIdeal.τ Cert.ReferenceIdeal.sig (Elt Ideal) :=
  after (Cert.ReferenceIdeal.HostRun.normalizeOps (F := Ideal)) (launchContents m' c)

include g0 g2 g3 g4 in
/-- The normalized features the first region leaves are the reference's. -/
theorem features_eq :
    (W4 m ρ c (Proc.devRef .tc Cert.KernelIdeal.main_v8) : Cert.KernelIdeal.S50000x128.Idx → Elt Ideal .f32)
      = refNormalized m' c (Proc.devRef .tc Cert.ReferenceIdeal.main_v20) :=
  ((W4_arr m ρ c 6).trans (Cert.KernelIdeal.Normalize.final (V3 m ρ) c)).trans
    (Cert.NormalizeBridge.features_eq (W0 m ρ c) (launchContents m' c) g0.symm g2.symm g3.symm g4.symm)

include g1 in
theorem arg1_eq : (W4 m ρ c (Proc.devRef .tc Cert.KernelIdeal.main_arg1) : Cert.KernelIdeal.S1000x128.Idx → Elt Ideal .f32)
    = refNormalized m' c (Proc.devRef .tc Cert.ReferenceIdeal.main_arg1) :=
  (W4_of_ne m ρ c Cert.KernelIdeal.main_arg1 (by decide)).trans ((Cert.NormalizeBridge.entry_arg1 (W0 m ρ c)).trans
    (g1.symm.trans (Cert.NormalizeBridge.ref_arg1 (launchContents m' c)).symm))

include g5 in
theorem arg5_eq : (W4 m ρ c (Proc.devRef .tc Cert.KernelIdeal.main_arg5) : Cert.KernelIdeal.S2x625000.Idx → Elt Ideal .i32)
    = refNormalized m' c (Proc.devRef .tc Cert.ReferenceIdeal.main_arg5) :=
  (W4_of_ne m ρ c Cert.KernelIdeal.main_arg5 (by decide)).trans ((Cert.NormalizeBridge.entry_arg5 (W0 m ρ c)).trans
    (g5.symm.trans (Cert.NormalizeBridge.ref_arg5 (launchContents m' c)).symm))

include g6 in
theorem arg6_eq : (W4 m ρ c (Proc.devRef .tc Cert.KernelIdeal.main_arg6) : Cert.KernelIdeal.S625000.Idx → Elt Ideal .i32)
    = refNormalized m' c (Proc.devRef .tc Cert.ReferenceIdeal.main_arg6) :=
  (W4_of_ne m ρ c Cert.KernelIdeal.main_arg6 (by decide)).trans ((Cert.NormalizeBridge.entry_arg6 (W0 m ρ c)).trans
    (g6.symm.trans (Cert.NormalizeBridge.ref_arg6 (launchContents m' c)).symm))

include g4 in
/-- The scale k is an input window of the first region: the region leaves it as it finds it. -/
theorem arg4_eq : (W4 m ρ c (Proc.devRef .tc Cert.KernelIdeal.main_arg4) : Cert.KernelIdeal.S1x128.Idx → Elt Ideal .f32)
    = refNormalized m' c (Proc.devRef .tc Cert.ReferenceIdeal.main_arg4) :=
  ((W4_arr m ρ c 5).trans (((dat0 (V3 m ρ) c).arrAt_in 5 rfl _).trans (A_eq0 (V3 m ρ) c 5))).trans
    ((Cert.NormalizeBridge.entry_arg4 (W0 m ρ c)).trans (g4.symm.trans (Cert.NormalizeBridge.ref_arg4 (launchContents m' c)).symm))

include g0 g1 g2 g3 g4 g5 g6 in
/-- THE RESULTS: the kernel's result array is the reference's. -/
theorem result_eq :
    (W6 m ρ c (Proc.devRef .tc Cert.KernelIdeal.main_v108) : Cert.KernelIdeal.S50000x128.Idx → Elt Ideal .f32)
      = after (Cert.ReferenceIdeal.HostRun.combineOps (F := Ideal)) (after (Cert.ReferenceIdeal.HostRun.aggregateOps (F := Ideal)) (refNormalized m' c))
          (Proc.devRef .tc Cert.ReferenceIdeal.main_v121) := by
  have hy := features_eq m ρ m' c g0 g2 g3 g4
  have h1 := arg1_eq m ρ m' c g1
  have h4 := arg4_eq m ρ m' c g4
  have h5 := arg5_eq m ρ m' c g5
  have h6 := arg6_eq m ρ m' c g6
  have k1 : (W6 m ρ c (Proc.devRef .tc Cert.KernelIdeal.main_v108) : Cert.KernelIdeal.S50000x128.Idx → Elt Ideal .f32)
      = Cert.KernelIdeal.Combine.combined (F := Ideal)
          (after (Cert.KernelIdeal.Gen.hostOps1 (F := Ideal)) (W4 m ρ c) (Proc.devRef .tc Cert.KernelIdeal.main_v40))
          (after (Cert.KernelIdeal.Gen.hostOps1 (F := Ideal)) (W4 m ρ c) (Proc.devRef .tc Cert.KernelIdeal.main_v43))
          (after (Cert.KernelIdeal.Gen.hostOps1 (F := Ideal)) (W4 m ρ c) (Proc.devRef .tc Cert.KernelIdeal.main_v8))
          (after (Cert.KernelIdeal.Gen.hostOps1 (F := Ideal)) (W4 m ρ c) (Proc.devRef .tc Cert.KernelIdeal.main_v107)) :=
    (W6_arr m ρ c 4).trans (Cert.KernelIdeal.Combine.final (V5 m ρ) c)
  rw [k1, Cert.Aggregate.incoming_eq (W4 m ρ c) (refNormalized m' c) hy h1 h4 h5 h6,
    Cert.Aggregate.outgoing_eq (W4 m ρ c) (refNormalized m' c) hy h1 h4 h5 h6,
    Cert.Reads.features_kept (W4 m ρ c), hy,
    Cert.Aggregate.recip_column_eq (W4 m ρ c), Cert.Aggregate.degree_eq (W4 m ρ c) (refNormalized m' c) h5 h6,
    Cert.Reads.ref_combine, Cert.Reads.ref_features_kept]
  funext i
  exact Cert.Entries.combine_entry _ _ _ _ (Cert.Aggregate.degree_ge_one (refNormalized m' c)) _ _ _ _ i

end Cert.Bridge

end
-- ==== Proof.lean ====
/-
  The certificate of the knowledge-graph layer: batch-normalized, scaled node features aggregated along the edges and
  normalized by a degree vector.

  The kernel's program runs two regions — normalize and scale the node features (row block by row block), and the final
  combine  ((in + out) + y) · (1/d)  — among host operations that compute the column statistics, the relation table, the edge
  gathers, the two segment sums and the degree vector; the reference computes everything on the host and ends with
  ((out + in) + y) / d. Over the extended reals the two results are one array (Proof/Bridge.lean): the same normalized
  features, hence the same sums and degrees; degrees ≥ 1, so the product with the reciprocal is the quotient; and one
  commutation of a sum. The three frames are the generated frame runs (the reference's: its straight line of host
  operations, which writes no argument); the idealization rewrote nothing, so nothing is owed for it.
-/
import proofs.«137147_j34394098106414_2_alg».proof.Defs
import proofs.«137147_j34394098106414_2_alg».proof.Proof.Gen.Kernel
import proofs.«137147_j34394098106414_2_alg».proof.Proof.Gen.Kernel.Frame
import proofs.«137147_j34394098106414_2_alg».proof.Proof.Gen.KernelIdeal
import proofs.«137147_j34394098106414_2_alg».proof.Proof.Gen.KernelIdeal.Frame
import proofs.«137147_j34394098106414_2_alg».proof.Proof.Gen.ReferenceIdeal
import proofs.«137147_j34394098106414_2_alg».proof.Proof.Gen.Pre_finite_inputs
import proofs.«137147_j34394098106414_2_alg».proof.Proof.KernelRun
import proofs.«137147_j34394098106414_2_alg».proof.Proof.RefRun
import proofs.«137147_j34394098106414_2_alg».proof.Proof.RefReads
import proofs.«137147_j34394098106414_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its straight line of host operations writes none of them. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c _).trans (Cert.Reads.ref_kept_arg0 _), (h c _).trans (Cert.Reads.ref_kept_arg1 _),
      (h c _).trans (Cert.Reads.ref_kept_arg2 _), (h c _).trans (Cert.Reads.ref_kept_arg3 _),
      (h c _).trans (Cert.Reads.ref_kept_arg4 _), (h c _).trans (Cert.Reads.ref_kept_arg5 _),
      (h c _).trans (Cert.Reads.ref_kept_arg6 _)⟩)
    (Cert.ReferenceIdeal.HostRun.run (F := Ideal) m ρ)

/-- From memories agreeing on the arguments both idealized programs run, and end with one result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v108),
    Cert.KernelIdeal.ValueRun.run m ρ, ?_⟩
  refine (θ_run Cert.ReferenceIdeal.defs _ _).mono (fun _ h c => ?_) (Cert.ReferenceIdeal.HostRun.run (F := Ideal) m' ρ')
  obtain ⟨g0, g1, g2, g3, g4, g5, g6⟩ := hagree c
  exact ⟨(h c _).trans (Cert.Bridge.result_eq m ρ m' c g0 g1 g2 g3 g4 g5 g6).symm,
    (h c _).trans (Cert.Reads.ref_kept_arg0 _), (h c _).trans (Cert.Reads.ref_kept_arg1 _),
    (h c _).trans (Cert.Reads.ref_kept_arg2 _), (h c _).trans (Cert.Reads.ref_kept_arg3 _),
    (h c _).trans (Cert.Reads.ref_kept_arg4 _), (h c _).trans (Cert.Reads.ref_kept_arg5 _),
    (h c _).trans (Cert.Reads.ref_kept_arg6 _)⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
